-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x1x2000x481x2 : Shape := ⟨5, ![16, 1, 2000, 481, 2]⟩
abbrev S16x2000x5x96x2 : Shape := ⟨5, ![16, 2000, 5, 96, 2]⟩
abbrev S16x2000x1 : Shape := ⟨3, ![16, 2000, 1]⟩
abbrev S_ : Shape := ⟨0, ![]⟩

class Facts : Prop where
  bcast_S_S16x1x2000x481x2 : S_.BroadcastsInDim S16x1x2000x481x2 (![] : Fin 0 → Fin S16x1x2000x481x2.rank)
  reducesTo_S16x1x2000x481x2_S_d0_1_2_3_4 : S16x1x2000x481x2.ReducesTo [0, 1, 2, 3, 4] S_
  h_S_ : 0 < S_.numel
  bcast_S_S16x2000x5x96x2 : S_.BroadcastsInDim S16x2000x5x96x2 (![] : Fin 0 → Fin S16x2000x5x96x2.rank)
  reducesTo_S16x2000x5x96x2_S_d0_1_2_3_4 : S16x2000x5x96x2.ReducesTo [0, 1, 2, 3, 4] S_
  bcast_S_S16x2000x1 : S_.BroadcastsInDim S16x2000x1 (![] : Fin 0 → Fin S16x2000x1.rank)
  reducesTo_S16x2000x1_S_d0_1_2 : S16x2000x1.ReducesTo [0, 1, 2] S_

variable [Facts]

def fn {F : FTy → Type} [FloatOps F] (main_arg0 : FVec F S16x1x2000x481x2 .f32) (main_arg1 : FVec F S16x2000x5x96x2 .f32) (main_arg2 : FVec F S16x2000x1 .f32) : IVec S_ 1 :=
  let main_v0 : FVec F S16x1x2000x481x2 .f32 := Host.absf main_arg0
  let main_cst : FVec F S_ .f32 := constant S_ .f32 0x7F800000#32
  let main_v1 : FVec F S16x1x2000x481x2 .f32 := broadcastInDim S16x1x2000x481x2 ![] bcast_S_S16x1x2000x481x2 main_cst
  let main_v2 : IVec S16x1x2000x481x2 1 := cmpf .olt main_v0 main_v1
  let main_c : IVec S_ 1 := constantI S_ 1 1#1
  let main_v3 : IVec S_ 1 := (fun x v => Host.reduce IntOp.andi x v reducesTo_S16x1x2000x481x2_S_d0_1_2_3_4 h_S_) main_v2 main_c
  let main_v4 : FVec F S16x2000x5x96x2 .f32 := Host.absf main_arg1
  let main_cst_0 : FVec F S_ .f32 := constant S_ .f32 0x7F800000#32
  let main_v5 : FVec F S16x2000x5x96x2 .f32 := broadcastInDim S16x2000x5x96x2 ![] bcast_S_S16x2000x5x96x2 main_cst_0
  let main_v6 : IVec S16x2000x5x96x2 1 := cmpf .olt main_v4 main_v5
  let main_c_1 : IVec S_ 1 := constantI S_ 1 1#1
  let main_v7 : IVec S_ 1 := (fun x v => Host.reduce IntOp.andi x v reducesTo_S16x2000x5x96x2_S_d0_1_2_3_4 h_S_) main_v6 main_c_1
  let main_v8 : IVec S_ 1 := andi main_v3 main_v7
  let main_v9 : FVec F S16x2000x1 .f32 := Host.absf main_arg2
  let main_cst_2 : FVec F S_ .f32 := constant S_ .f32 0x7F800000#32
  let main_v10 : FVec F S16x2000x1 .f32 := broadcastInDim S16x2000x1 ![] bcast_S_S16x2000x1 main_cst_2
  let main_v11 : IVec S16x2000x1 1 := cmpf .olt main_v9 main_v10
  let main_c_3 : IVec S_ 1 := constantI S_ 1 1#1
  let main_v12 : IVec S_ 1 := (fun x v => Host.reduce IntOp.andi x v reducesTo_S16x2000x1_S_d0_1_2 h_S_) main_v11 main_c_3
  let main_v13 : IVec S_ 1 := andi main_v8 main_v12
  main_v13
-- ==== Kernel.lean ====
abbrev S16x1x2000x481x2 : Shape := ⟨5, ![16, 1, 2000, 481, 2]⟩
abbrev S16x2000x5x96x2 : Shape := ⟨5, ![16, 2000, 5, 96, 2]⟩
abbrev S16x2000x1 : Shape := ⟨3, ![16, 2000, 1]⟩
abbrev S16x1x2000x96x2 : Shape := ⟨5, ![16, 1, 2000, 96, 2]⟩
abbrev S16x2000x96x2 : Shape := ⟨4, ![16, 2000, 96, 2]⟩
abbrev S16x2x2000x96 : Shape := ⟨4, ![16, 2, 2000, 96]⟩
abbrev S16x2x5x2000x96 : Shape := ⟨5, ![16, 2, 5, 2000, 96]⟩
abbrev S1x2x1000x96 : Shape := ⟨4, ![1, 2, 1000, 96]⟩
abbrev S1x2x5x1000x96 : Shape := ⟨5, ![1, 2, 5, 1000, 96]⟩
abbrev S1x1000x1 : Shape := ⟨3, ![1, 1000, 1]⟩
abbrev S2x1004x96 : Shape := ⟨3, ![2, 1004, 96]⟩
abbrev S2x4x96 : Shape := ⟨3, ![2, 4, 96]⟩
abbrev S2x1000x96 : Shape := ⟨3, ![2, 1000, 96]⟩
abbrev S1000x96 : Shape := ⟨2, ![1000, 96]⟩
abbrev S1x1000x96 : Shape := ⟨3, ![1, 1000, 96]⟩
abbrev S1x1x1x1000x96 : Shape := ⟨5, ![1, 1, 1, 1000, 96]⟩
abbrev S1000x1 : Shape := ⟨2, ![1000, 1]⟩
abbrev S1x1x1000x96 : Shape := ⟨4, ![1, 1, 1000, 96]⟩
abbrev S_ : Shape := ⟨0, ![]⟩
abbrev S1 : Shape := ⟨1, ![1]⟩

abbrev nBuf : Space → Nat
  | .hbm => 13
  | .vmem => 9
  | .smem => 0
  | _ => 0

abbrev bufTy : (tb : Table) → Fin (tcTables nBuf tb) → BufTy
  | .hbm, ⟨0, _⟩ => ⟨S16x1x2000x481x2, .f32⟩
  | .hbm, ⟨1, _⟩ => ⟨S16x2000x5x96x2, .f32⟩
  | .hbm, ⟨2, _⟩ => ⟨S16x2000x1, .f32⟩
  | .hbm, ⟨3, _⟩ => ⟨S16x1x2000x96x2, .f32⟩
  | .hbm, ⟨4, _⟩ => ⟨S16x2000x96x2, .f32⟩
  | .hbm, ⟨5, _⟩ => ⟨S16x2x2000x96, .f32⟩
  | .hbm, ⟨6, _⟩ => ⟨S16x2x5x2000x96, .f32⟩
  | .hbm, ⟨7, _⟩ => ⟨S16x2x2000x96, .f32⟩
  | .hbm, ⟨8, _⟩ => ⟨S16x2000x96x2, .f32⟩
  | .hbm, ⟨9, _⟩ => ⟨S16x1x2000x96x2, .f32⟩
  | .hbm, ⟨10, _⟩ => ⟨S_, .i32⟩
  | .hbm, ⟨11, _⟩ => ⟨S1, .i32⟩
  | .hbm, ⟨12, _⟩ => ⟨S16x1x2000x481x2, .f32⟩
  | .local _ .vmem, ⟨0, _⟩ => ⟨S1x2x1000x96, .f32⟩
  | .local _ .vmem, ⟨1, _⟩ => ⟨S1x2x1000x96, .f32⟩
  | .local _ .vmem, ⟨2, _⟩ => ⟨S1x2x5x1000x96, .f32⟩
  | .local _ .vmem, ⟨3, _⟩ => ⟨S1x2x5x1000x96, .f32⟩
  | .local _ .vmem, ⟨4, _⟩ => ⟨S1x1000x1, .f32⟩
  | .local _ .vmem, ⟨5, _⟩ => ⟨S1x1000x1, .f32⟩
  | .local _ .vmem, ⟨6, _⟩ => ⟨S1x2x1000x96, .f32⟩
  | .local _ .vmem, ⟨7, _⟩ => ⟨S1x2x1000x96, .f32⟩
  | .local _ .vmem, ⟨8, _⟩ => ⟨S2x1004x96, .f32⟩
  | _, _ => ⟨S16x1x2000x481x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_c : Ref sig .tc := ⟨.hbm, 10, rfl⟩
abbrev main_v7 : Ref sig .tc := ⟨.hbm, 11, rfl⟩
abbrev main_v8 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 2], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, arg1.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x2x1000x96 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2x5x1000x96 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2x1000x96 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  slices_S16x1x2000x481x2_S16x1x2000x96x2_0_0_0_0_0 : S16x1x2000x481x2.Slices ![0, 0, 0, 0, 0] S16x1x2000x96x2
  shapeCasts_S16x1x2000x96x2_S16x2000x96x2 : S16x1x2000x96x2.ShapeCasts S16x2000x96x2
  transposes_S16x2000x96x2_S16x2x2000x96_0_3_1_2 : S16x2000x96x2.Transposes [0, 3, 1, 2] S16x2x2000x96
  transposes_S16x2000x5x96x2_S16x2x5x2000x96_0_4_2_1_3 : S16x2000x5x96x2.Transposes [0, 4, 2, 1, 3] S16x2x5x2000x96
  inb_S2x1004x96_S2x4x96_0_0_0 : ∀ a, (![0, 0, 0] : Fin 3 → Nat) a + S2x4x96.size a ≤ S2x1004x96.size a
  h_S2x4x96 : 0 < S2x4x96.numel
  shapeCasts_S2x4x96_S2x4x96 : S2x4x96.ShapeCasts S2x4x96
  inb_S1x2x1000x96_S1x2x1000x96_0_0_0_0 : ∀ a, (![0, 0, 0, 0] : Fin 4 → Nat) a + S1x2x1000x96.size a ≤ S1x2x1000x96.size a
  h_S1x2x1000x96 : 0 < S1x2x1000x96.numel
  shapeCasts_S1x2x1000x96_S2x1000x96 : S1x2x1000x96.ShapeCasts S2x1000x96
  inb_S2x1004x96_S2x1000x96_0_4_0 : ∀ a, (![0, 4, 0] : Fin 3 → Nat) a + S2x1000x96.size a ≤ S2x1004x96.size a
  h_S2x1000x96 : 0 < S2x1000x96.numel
  shapeCasts_S2x1000x96_S2x1000x96 : S2x1000x96.ShapeCasts S2x1000x96
  inb_S2x1004x96_S1x1000x96_0_0_0 : ∀ a, (![0, 0, 0] : Fin 3 → Nat) a + S1x1000x96.size a ≤ S2x1004x96.size a
  h_S1x1000x96 : 0 < S1x1000x96.numel
  shapeCasts_S1x1000x96_S1000x96 : S1x1000x96.ShapeCasts S1000x96
  inb_S2x1004x96_S1x1000x96_1_0_0 : ∀ a, (![1, 0, 0] : Fin 3 → Nat) a + S1x1000x96.size a ≤ S2x1004x96.size a
  inb_S1x2x5x1000x96_S1x1x1x1000x96_0_0_0_0_0 : ∀ a, (![0, 0, 0, 0, 0] : Fin 5 → Nat) a + S1x1x1x1000x96.size a ≤ S1x2x5x1000x96.size a
  h_S1x1x1x1000x96 : 0 < S1x1x1x1000x96.numel
  shapeCasts_S1x1x1x1000x96_S1000x96 : S1x1x1x1000x96.ShapeCasts S1000x96
  inb_S1x2x5x1000x96_S1x1x1x1000x96_0_1_0_0_0 : ∀ a, (![0, 1, 0, 0, 0] : Fin 5 → Nat) a + S1x1x1x1000x96.size a ≤ S1x2x5x1000x96.size a
  inb_S2x1004x96_S1x1000x96_0_1_0 : ∀ a, (![0, 1, 0] : Fin 3 → Nat) a + S1x1000x96.size a ≤ S2x1004x96.size a
  inb_S2x1004x96_S1x1000x96_1_1_0 : ∀ a, (![1, 1, 0] : Fin 3 → Nat) a + S1x1000x96.size a ≤ S2x1004x96.size a
  inb_S1x2x5x1000x96_S1x1x1x1000x96_0_0_1_0_0 : ∀ a, (![0, 0, 1, 0, 0] : Fin 5 → Nat) a + S1x1x1x1000x96.size a ≤ S1x2x5x1000x96.size a
  inb_S1x2x5x1000x96_S1x1x1x1000x96_0_1_1_0_0 : ∀ a, (![0, 1, 1, 0, 0] : Fin 5 → Nat) a + S1x1x1x1000x96.size a ≤ S1x2x5x1000x96.size a
  inb_S2x1004x96_S1x1000x96_0_2_0 : ∀ a, (![0, 2, 0] : Fin 3 → Nat) a + S1x1000x96.size a ≤ S2x1004x96.size a
  inb_S2x1004x96_S1x1000x96_1_2_0 : ∀ a, (![1, 2, 0] : Fin 3 → Nat) a + S1x1000x96.size a ≤ S2x1004x96.size a
  inb_S1x2x5x1000x96_S1x1x1x1000x96_0_0_2_0_0 : ∀ a, (![0, 0, 2, 0, 0] : Fin 5 → Nat) a + S1x1x1x1000x96.size a ≤ S1x2x5x1000x96.size a
  inb_S1x2x5x1000x96_S1x1x1x1000x96_0_1_2_0_0 : ∀ a, (![0, 1, 2, 0, 0] : Fin 5 → Nat) a + S1x1x1x1000x96.size a ≤ S1x2x5x1000x96.size a
  inb_S2x1004x96_S1x1000x96_0_3_0 : ∀ a, (![0, 3, 0] : Fin 3 → Nat) a + S1x1000x96.size a ≤ S2x1004x96.size a
  inb_S2x1004x96_S1x1000x96_1_3_0 : ∀ a, (![1, 3, 0] : Fin 3 → Nat) a + S1x1000x96.size a ≤ S2x1004x96.size a
  inb_S1x2x5x1000x96_S1x1x1x1000x96_0_0_3_0_0 : ∀ a, (![0, 0, 3, 0, 0] : Fin 5 → Nat) a + S1x1x1x1000x96.size a ≤ S1x2x5x1000x96.size a
  inb_S1x2x5x1000x96_S1x1x1x1000x96_0_1_3_0_0 : ∀ a, (![0, 1, 3, 0, 0] : Fin 5 → Nat) a + S1x1x1x1000x96.size a ≤ S1x2x5x1000x96.size a
  inb_S2x1004x96_S1x1000x96_0_4_0 : ∀ a, (![0, 4, 0] : Fin 3 → Nat) a + S1x1000x96.size a ≤ S2x1004x96.size a
  inb_S2x1004x96_S1x1000x96_1_4_0 : ∀ a, (![1, 4, 0] : Fin 3 → Nat) a + S1x1000x96.size a ≤ S2x1004x96.size a
  inb_S1x2x5x1000x96_S1x1x1x1000x96_0_0_4_0_0 : ∀ a, (![0, 0, 4, 0, 0] : Fin 5 → Nat) a + S1x1x1x1000x96.size a ≤ S1x2x5x1000x96.size a
  inb_S1x2x5x1000x96_S1x1x1x1000x96_0_1_4_0_0 : ∀ a, (![0, 1, 4, 0, 0] : Fin 5 → Nat) a + S1x1x1x1000x96.size a ≤ S1x2x5x1000x96.size a
  inb_S1x1000x1_S1x1000x1_0_0_0 : ∀ a, (![0, 0, 0] : Fin 3 → Nat) a + S1x1000x1.size a ≤ S1x1000x1.size a
  h_S1x1000x1 : 0 < S1x1000x1.numel
  shapeCasts_S1x1000x1_S1000x1 : S1x1000x1.ShapeCasts S1000x1
  inb_S1x2x1000x96_S1x1x1000x96_0_0_0_0 : ∀ a, (![0, 0, 0, 0] : Fin 4 → Nat) a + S1x1x1000x96.size a ≤ S1x2x1000x96.size a
  h_S1x1x1000x96 : 0 < S1x1x1000x96.numel
  shapeCasts_S1x1x1000x96_S1000x96 : S1x1x1000x96.ShapeCasts S1000x96
  inb_S1x2x1000x96_S1x1x1000x96_0_1_0_0 : ∀ a, (![0, 1, 0, 0] : Fin 4 → Nat) a + S1x1x1000x96.size a ≤ S1x2x1000x96.size a
  broadcasts_S1000x1_S1000x96 : S1000x1.Broadcasts S1000x96
  shapeCasts_S1000x96_S1x1x1000x96 : S1000x96.ShapeCasts S1x1x1000x96
  inb_S2x1004x96_S2x4x96_0_1000_0 : ∀ a, (![0, 1000, 0] : Fin 3 → Nat) a + S2x4x96.size a ≤ S2x1004x96.size a
  transposes_S16x2x2000x96_S16x2000x96x2_0_2_3_1 : S16x2x2000x96.Transposes [0, 2, 3, 1] S16x2000x96x2
  bcast_S16x2000x96x2_S16x1x2000x96x2_0_2_3_4 : S16x2000x96x2.BroadcastsInDim S16x1x2000x96x2 (![0, 2, 3, 4] : Fin 4 → Fin S16x1x2000x96x2.rank)
  bcast_S_S1 : S_.BroadcastsInDim S1 (![] : Fin 0 → Fin S1.rank)
  scatter_S16x1x2000x481x2_S1_S16x1x2000x96x2_01234_n_3_0_wf : ScatterDims.WF S16x1x2000x481x2 S1 S16x1x2000x96x2 [0, 1, 2, 3, 4] [] [3] 0
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2x1000x96.size a ≤ S16x2x2000x96.size a
  hwx0_0 : ∀ i : grid0.Coords, EltTy.bits .f32 = 32 ∨ (Rect.block (s := S16x2x2000x96) S1x2x1000x96.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2x5x1000x96.size a ≤ S16x2x5x2000x96.size a
  hwx0_1 : ∀ i : grid0.Coords, EltTy.bits .f32 = 32 ∨ (Rect.block (s := S16x2x5x2000x96) S1x2x5x1000x96.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1000x1.size a ≤ S16x2000x1.size a
  hwx0_2 : ∀ i : grid0.Coords, EltTy.bits .f32 = 32 ∨ (Rect.block (s := S16x2000x1) S1x1000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x2x1000x96.size a ≤ S16x2x2000x96.size a
  hwx0_3 : ∀ i : grid0.Coords, EltTy.bits .f32 = 32 ∨ (Rect.block (s := S16x2x2000x96) S1x2x1000x96.size (cc0_transform_3 i) (hinb0_3 i)).WholeWords (EltTy.packing .f32)

variable [Facts₀]

def scatter_S16x1x2000x481x2_S1_S16x1x2000x96x2_01234_n_3_0 : ScatterDims S16x1x2000x481x2 S1 S16x1x2000x96x2 where
  updateWindowDims := [0, 1, 2, 3, 4]
  insertedWindowDims := []
  scatterDimsToOperandDims := [3]
  indexVectorDim := 0
  wf := scatter_S16x1x2000x481x2_S1_S16x1x2000x96x2_01234_n_3_0_wf

abbrev win0_0 : Pipeline.Window sig grid0 :=
  Pipeline.Window.ofSpec (Memref.whole main_v2) S1x2x1000x96.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S1x2x5x1000x96.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x1000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1x2x1000x96.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16x1x2000x481x2 : Shape := ⟨5, ![16, 1, 2000, 481, 2]⟩
abbrev S16x2000x5x96x2 : Shape := ⟨5, ![16, 2000, 5, 96, 2]⟩
abbrev S16x2000x1 : Shape := ⟨3, ![16, 2000, 1]⟩
abbrev S16x1x2000x96x2 : Shape := ⟨5, ![16, 1, 2000, 96, 2]⟩
abbrev S16x2000x96x2 : Shape := ⟨4, ![16, 2000, 96, 2]⟩
abbrev S_ : Shape := ⟨0, ![]⟩
abbrev S16x2004x96x2 : Shape := ⟨4, ![16, 2004, 96, 2]⟩
abbrev S16x2000x1x96x2 : Shape := ⟨5, ![16, 2000, 1, 96, 2]⟩
abbrev S16x2000x5x96x1 : Shape := ⟨5, ![16, 2000, 5, 96, 1]⟩
abbrev S16x2000x5x96 : Shape := ⟨4, ![16, 2000, 5, 96]⟩
abbrev S16x1x2000x1x1 : Shape := ⟨5, ![16, 1, 2000, 1, 1]⟩
abbrev S1 : Shape := ⟨1, ![1]⟩

abbrev nBuf : Space → Nat
  | .hbm => 60
  | .vmem => 0
  | .smem => 0
  | _ => 0

abbrev bufTy : (tb : Table) → Fin (tcTables nBuf tb) → BufTy
  | .hbm, ⟨0, _⟩ => ⟨S16x1x2000x481x2, .f32⟩
  | .hbm, ⟨1, _⟩ => ⟨S16x2000x5x96x2, .f32⟩
  | .hbm, ⟨2, _⟩ => ⟨S16x2000x1, .f32⟩
  | .hbm, ⟨3, _⟩ => ⟨S16x1x2000x96x2, .f32⟩
  | .hbm, ⟨4, _⟩ => ⟨S16x2000x96x2, .f32⟩
  | .hbm, ⟨5, _⟩ => ⟨S_, .i32⟩
  | .hbm, ⟨6, _⟩ => ⟨S_, .f32⟩
  | .hbm, ⟨7, _⟩ => ⟨S16x2004x96x2, .f32⟩
  | .hbm, ⟨8, _⟩ => ⟨S16x2000x96x2, .f32⟩
  | .hbm, ⟨9, _⟩ => ⟨S16x2000x96x2, .f32⟩
  | .hbm, ⟨10, _⟩ => ⟨S16x2000x96x2, .f32⟩
  | .hbm, ⟨11, _⟩ => ⟨S16x2000x96x2, .f32⟩
  | .hbm, ⟨12, _⟩ => ⟨S16x2000x96x2, .f32⟩
  | .hbm, ⟨13, _⟩ => ⟨S16x2000x1x96x2, .f32⟩
  | .hbm, ⟨14, _⟩ => ⟨S16x2000x1x96x2, .f32⟩
  | .hbm, ⟨15, _⟩ => ⟨S16x2000x1x96x2, .f32⟩
  | .hbm, ⟨16, _⟩ => ⟨S16x2000x1x96x2, .f32⟩
  | .hbm, ⟨17, _⟩ => ⟨S16x2000x1x96x2, .f32⟩
  | .hbm, ⟨18, _⟩ => ⟨S16x2000x5x96x2, .f32⟩
  | .hbm, ⟨19, _⟩ => ⟨S16x2000x5x96x1, .f32⟩
  | .hbm, ⟨20, _⟩ => ⟨S16x2000x5x96, .f32⟩
  | .hbm, ⟨21, _⟩ => ⟨S16x2000x5x96x1, .f32⟩
  | .hbm, ⟨22, _⟩ => ⟨S16x2000x5x96, .f32⟩
  | .hbm, ⟨23, _⟩ => ⟨S16x2000x5x96, .f32⟩
  | .hbm, ⟨24, _⟩ => ⟨S16x2000x5x96x1, .f32⟩
  | .hbm, ⟨25, _⟩ => ⟨S16x2000x5x96, .f32⟩
  | .hbm, ⟨26, _⟩ => ⟨S16x2000x5x96x1, .f32⟩
  | .hbm, ⟨27, _⟩ => ⟨S16x2000x5x96, .f32⟩
  | .hbm, ⟨28, _⟩ => ⟨S16x2000x5x96, .f32⟩
  | .hbm, ⟨29, _⟩ => ⟨S16x2000x5x96, .f32⟩
  | .hbm, ⟨30, _⟩ => ⟨S16x2000x5x96x1, .f32⟩
  | .hbm, ⟨31, _⟩ => ⟨S16x2000x5x96, .f32⟩
  | .hbm, ⟨32, _⟩ => ⟨S16x2000x5x96x1, .f32⟩
  | .hbm, ⟨33, _⟩ => ⟨S16x2000x5x96, .f32⟩
  | .hbm, ⟨34, _⟩ => ⟨S16x2000x5x96, .f32⟩
  | .hbm, ⟨35, _⟩ => ⟨S16x2000x5x96x1, .f32⟩
  | .hbm, ⟨36, _⟩ => ⟨S16x2000x5x96, .f32⟩
  | .hbm, ⟨37, _⟩ => ⟨S16x2000x5x96x1, .f32⟩
  | .hbm, ⟨38, _⟩ => ⟨S16x2000x5x96, .f32⟩
  | .hbm, ⟨39, _⟩ => ⟨S16x2000x5x96, .f32⟩
  | .hbm, ⟨40, _⟩ => ⟨S16x2000x5x96, .f32⟩
  | .hbm, ⟨41, _⟩ => ⟨S16x2000x5x96x1, .f32⟩
  | .hbm, ⟨42, _⟩ => ⟨S16x2000x5x96x1, .f32⟩
  | .hbm, ⟨43, _⟩ => ⟨S16x2000x5x96x2, .f32⟩
  | .hbm, ⟨44, _⟩ => ⟨S_, .f32⟩
  | .hbm, ⟨45, _⟩ => ⟨S16x2000x96x2, .f32⟩
  | .hbm, ⟨46, _⟩ => ⟨S16x1x2000x1x1, .f32⟩
  | .hbm, ⟨47, _⟩ => ⟨S16x1x2000x96x2, .f32⟩
  | .hbm, ⟨48, _⟩ => ⟨S16x1x2000x96x2, .f32⟩
  | .hbm, ⟨49, _⟩ => ⟨S16x1x2000x96x2, .f32⟩
  | .hbm, ⟨50, _⟩ => ⟨S16x1x2000x96x2, .f32⟩
  | .hbm, ⟨51, _⟩ => ⟨S_, .f32⟩
  | .hbm, ⟨52, _⟩ => ⟨S16x1x2000x1x1, .f32⟩
  | .hbm, ⟨53, _⟩ => ⟨S16x1x2000x1x1, .f32⟩
  | .hbm, ⟨54, _⟩ => ⟨S16x1x2000x96x2, .f32⟩
  | .hbm, ⟨55, _⟩ => ⟨S16x1x2000x96x2, .f32⟩
  | .hbm, ⟨56, _⟩ => ⟨S16x1x2000x96x2, .f32⟩
  | .hbm, ⟨57, _⟩ => ⟨S_, .i32⟩
  | .hbm, ⟨58, _⟩ => ⟨S1, .i32⟩
  | .hbm, ⟨59, _⟩ => ⟨S16x1x2000x481x2, .f32⟩
  | _, _ => ⟨S16x1x2000x481x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_call0_v0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_cst : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_cst_0 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_c_1 : Ref sig .tc := ⟨.hbm, 57, rfl⟩
abbrev main_v50 : Ref sig .tc := ⟨.hbm, 58, rfl⟩
abbrev main_v51 : Ref sig .tc := ⟨.hbm, 59, rfl⟩

abbrev nD : Nat := 1
abbrev τ : Topo := Topo.v7x

variable {F : FTy → Type} [FloatOps F]

class Facts₀ : Prop where
  slices_S16x1x2000x481x2_S16x1x2000x96x2_0_0_0_0_0 : S16x1x2000x481x2.Slices ![0, 0, 0, 0, 0] S16x1x2000x96x2
  shapeCasts_S16x1x2000x96x2_S16x2000x96x2 : S16x1x2000x96x2.ShapeCasts S16x2000x96x2
  pads_S16x2000x96x2_S16x2004x96x2_000_400_000_000 : S16x2000x96x2.Pads (![0, 4, 0, 0] : Fin 4 → Nat) ![0, 0, 0, 0] ![0, 0, 0, 0] S16x2004x96x2
  h_S_ : 0 < S_.numel
  slices_S16x2004x96x2_S16x2000x96x2_0_0_0_0 : S16x2004x96x2.Slices ![0, 0, 0, 0] S16x2000x96x2
  slices_S16x2004x96x2_S16x2000x96x2_0_1_0_0 : S16x2004x96x2.Slices ![0, 1, 0, 0] S16x2000x96x2
  slices_S16x2004x96x2_S16x2000x96x2_0_2_0_0 : S16x2004x96x2.Slices ![0, 2, 0, 0] S16x2000x96x2
  slices_S16x2004x96x2_S16x2000x96x2_0_3_0_0 : S16x2004x96x2.Slices ![0, 3, 0, 0] S16x2000x96x2
  slices_S16x2004x96x2_S16x2000x96x2_0_4_0_0 : S16x2004x96x2.Slices ![0, 4, 0, 0] S16x2000x96x2
  bcast_S16x2000x96x2_S16x2000x1x96x2_0_1_3_4 : S16x2000x96x2.BroadcastsInDim S16x2000x1x96x2 (![0, 1, 3, 4] : Fin 4 → Fin S16x2000x1x96x2.rank)
  concatenates_S16x2000x1x96x2_S16x2000x1x96x2_S16x2000x1x96x2_S16x2000x1x96x2_S16x2000x1x96x2_S16x2000x5x96x2_d2 : Shape.Concatenates [S16x2000x1x96x2, S16x2000x1x96x2, S16x2000x1x96x2, S16x2000x1x96x2, S16x2000x1x96x2] S16x2000x5x96x2 2
  slices_S16x2000x5x96x2_S16x2000x5x96x1_0_0_0_0_0 : S16x2000x5x96x2.Slices ![0, 0, 0, 0, 0] S16x2000x5x96x1
  shapeCasts_S16x2000x5x96x1_S16x2000x5x96 : S16x2000x5x96x1.ShapeCasts S16x2000x5x96
  slices_S16x2000x5x96x2_S16x2000x5x96x1_0_0_0_0_1 : S16x2000x5x96x2.Slices ![0, 0, 0, 0, 1] S16x2000x5x96x1
  bcast_S16x2000x5x96_S16x2000x5x96x1_0_1_2_3 : S16x2000x5x96.BroadcastsInDim S16x2000x5x96x1 (![0, 1, 2, 3] : Fin 4 → Fin S16x2000x5x96x1.rank)
  concatenates_S16x2000x5x96x1_S16x2000x5x96x1_S16x2000x5x96x2_d4 : Shape.Concatenates [S16x2000x5x96x1, S16x2000x5x96x1] S16x2000x5x96x2 4
  reducesTo_S16x2000x5x96x2_S16x2000x96x2_d2 : S16x2000x5x96x2.ReducesTo [2] S16x2000x96x2
  shapeCasts_S16x2000x1_S16x1x2000x1x1 : S16x2000x1.ShapeCasts S16x1x2000x1x1
  bcast_S16x2000x96x2_S16x1x2000x96x2_0_2_3_4 : S16x2000x96x2.BroadcastsInDim S16x1x2000x96x2 (![0, 2, 3, 4] : Fin 4 → Fin S16x1x2000x96x2.rank)
  bcast_S16x1x2000x1x1_S16x1x2000x96x2_0_1_2_3_4 : S16x1x2000x1x1.BroadcastsInDim S16x1x2000x96x2 (![0, 1, 2, 3, 4] : Fin 5 → Fin S16x1x2000x96x2.rank)
  bcast_S_S16x1x2000x1x1 : S_.BroadcastsInDim S16x1x2000x1x1 (![] : Fin 0 → Fin S16x1x2000x1x1.rank)
  bcast_S_S1 : S_.BroadcastsInDim S1 (![] : Fin 0 → Fin S1.rank)
  scatter_S16x1x2000x481x2_S1_S16x1x2000x96x2_01234_n_3_0_wf : ScatterDims.WF S16x1x2000x481x2 S1 S16x1x2000x96x2 [0, 1, 2, 3, 4] [] [3] 0

variable [Facts₀]

def scatter_S16x1x2000x481x2_S1_S16x1x2000x96x2_01234_n_3_0 : ScatterDims S16x1x2000x481x2 S1 S16x1x2000x96x2 where
  updateWindowDims := [0, 1, 2, 3, 4]
  insertedWindowDims := []
  scatterDimsToOperandDims := [3]
  indexVectorDim := 0
  wf := scatter_S16x1x2000x481x2_S1_S16x1x2000x96x2_01234_n_3_0_wf

class Facts : Prop extends Facts₀ where

variable [Facts]
-- ==== Proof.LibUnitAxes.lean ====
/-
  Two leading unit axes dropped from or added to a matrix, read at an index. A [1, 1, a, b] array and an [a, b] array
  list the same a·b entries in the same row-major order, so a recast between the two shapes holds at (p, d), respectively
  at (0, 0, p, d), the operand's entry at (0, 0, p, d), respectively at (p, d). General: nothing here depends on a
  particular program.
-/
import Idealize.ShloMosaic.Lib.Pipeline.Value
import Idealize.ShloMosaic.Lib.ValueLayout

namespace Idealize.ShloMosaic.ValueIdx

open Idealize.ShloMosaic

variable {α : Type}

/-- A [1,1,a,b] array recast to [a,b] holds at (p, d) the operand's entry (0,0,p,d). -/
theorem shapeCast_11ab_ab_apply {a b : ℕ} (x : (⟨4, ![1, 1, a, b]⟩ : Shape).Idx → α)
    (h : (⟨4, ![1, 1, a, b]⟩ : Shape).ShapeCasts ⟨2, ![a, b]⟩) (p : Fin a) (d : Fin b) :
    shapeCast ⟨2, ![a, b]⟩ x h (ix2 p d) = x (ix4 (0 : Fin 1) (0 : Fin 1) p d) :=
  shapeCast_apply x h _ _ (by
    rw [Shape.rowMajor_val_four, Shape.rowMajor_val_two]
    show ((0 * 1 + 0) * a + p.val) * b + d.val = p.val * b + d.val
    simp only [Nat.zero_mul, Nat.zero_add])

/-- An [a,b] array recast to [1,1,a,b] holds at (0,0,p,d) the operand's entry (p, d). -/
theorem shapeCast_ab_11ab_apply {a b : ℕ} (x : (⟨2, ![a, b]⟩ : Shape).Idx → α)
    (h : (⟨2, ![a, b]⟩ : Shape).ShapeCasts ⟨4, ![1, 1, a, b]⟩) (p : Fin a) (d : Fin b) :
    shapeCast ⟨4, ![1, 1, a, b]⟩ x h (ix4 (0 : Fin 1) (0 : Fin 1) p d) = x (ix2 p d) :=
  shapeCast_apply x h _ _ (by
    rw [Shape.rowMajor_val_four, Shape.rowMajor_val_two]
    show p.val * b + d.val = ((0 * 1 + 0) * a + p.val) * b + d.val
    simp only [Nat.zero_mul, Nat.zero_add])

end Idealize.ShloMosaic.ValueIdx
-- ==== Proof.LibLayout.lean ====
/-
  A keepdims column read at an index. An array with one column, broadcast along its unit axis to `b` columns,
  holds at `(p, c)` the operand's entry in row `p`: every column is a copy of the one column.
-/
import Idealize.ShloMosaic.Lib.Pipeline.Value
import Idealize.ShloMosaic.Lib.ValueLayout

namespace Idealize.ShloMosaic.ValueIdx

open Idealize.ShloMosaic

variable {α : Type}

/-- An `[a, 1]` array broadcast to `[a, b]` reads, at `(p, c)`, the operand's one column at row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.Taps.lean ====
/-
  The kernel body's arithmetic read at one entry.

  The body computes, for every row r of its 1000-row time tile and every bin f, the five-tap complex filter from ten
  1000-row windows of its scratch signal (window k of part 0 and of part 1 starts at scratch row k) and ten coefficient
  planes, then blends the result with the tile's own sample by the row's factor a:  out = acc · a + x · (1 − a).
  The real part accumulates  acc + re·cre − im·cim  tap by tap from zero, the imaginary part  acc + im·cre + re·cim.
  Here each stage of that chain is read at the entry (r, f) as plain extended-real arithmetic of the loaded values at
  the matching entries; the layout steps between (unit axes dropped or added, the factor's column spread over the bins)
  do not move an entry.
-/
import proofs.«177004_j30185030156318_2_alg».proof.Proof.Gen.KernelIdeal.Skeleton
import proofs.«177004_j30185030156318_2_alg».proof.Proof.LibUnitAxes
import proofs.«177004_j30185030156318_2_alg».proof.Proof.LibLayout
import Idealize.ShloMosaic.Lib.ValueIdx
import Idealize.ShloMosaic.Lib.ValueLayout
import Idealize.ShloMosaic.Lib.Pipeline.Value

noncomputable section

namespace Cert.KernelIdeal.Body

open Idealize.ShloMosaic Idealize.ShloMosaic.ValueIdx Cert.KernelIdeal Cert.KernelIdeal.Gen

variable {α : Type}

/-- A [1,1,1,a,b] array recast to [a,b] holds at (p, d) the operand's entry (0,0,0,p,d): same row-major position. -/
theorem shapeCast_111ab_ab_apply {a b : ℕ} (x : (⟨5, ![1, 1, 1, a, b]⟩ : Shape).Idx → α)
    (h : (⟨5, ![1, 1, 1, a, b]⟩ : Shape).ShapeCasts ⟨2, ![a, b]⟩) (p : Fin a) (d : Fin b) :
    shapeCast ⟨2, ![a, b]⟩ x h (ix2 p d) = x (ix5 (0 : Fin 1) (0 : Fin 1) (0 : Fin 1) p d) :=
  shapeCast_apply x h _ _ (by
    rw [Shape.rowMajor_val_five, Shape.rowMajor_val_two]
    show (((0 * 1 + 0) * 1 + 0) * a + p.val) * b + d.val = p.val * b + d.val
    simp only [Nat.zero_mul, Nat.zero_add])

variable (r : Fin 1000) (f : Fin 96)

/-- The first tap of the real part: zero, plus re·cre, minus im·cim. -/
theorem pay8_at (w0 w1 : Vec Ideal S1x1000x96 .f32) (c0 c1 : Vec Ideal S1x1x1x1000x96 .f32) :
    k0_pay8 (F := Ideal) w0 w1 c0 c1 (ix2 r f)
      = (Ideal.ofBits .f32 0x00000000#32 + w0 (ix3 0 r f) * c0 (ix5 0 0 0 r f)) - w1 (ix3 0 r f) * c1 (ix5 0 0 0 r f) := by
  simp only [k0_pay8, k0_pay4, k0_pay5, k0_pay6, k0_pay7, subf_apply, addf_apply, mulf_apply, broadcast_apply,
    shapeCast_1ab_ab_apply, shapeCast_111ab_ab_apply]
  rfl

/-- The first tap of the imaginary part: zero, plus im·cre, plus re·cim. -/
theorem pay9_at (w0 w1 : Vec Ideal S1x1000x96 .f32) (c0 c1 : Vec Ideal S1x1x1x1000x96 .f32) :
    k0_pay9 (F := Ideal) w0 w1 c0 c1 (ix2 r f)
      = (Ideal.ofBits .f32 0x00000000#32 + w1 (ix3 0 r f) * c0 (ix5 0 0 0 r f)) + w0 (ix3 0 r f) * c1 (ix5 0 0 0 r f) := by
  simp only [k0_pay9, k0_pay4, k0_pay5, k0_pay6, k0_pay7, addf_apply, mulf_apply, broadcast_apply,
    shapeCast_1ab_ab_apply, shapeCast_111ab_ab_apply]
  rfl

/-- Taps 1 and 2 of the real part, on top of the running value. -/
theorem pay18_at (v : FVec Ideal S1000x96 .f32) (w01 w11 : Vec Ideal S1x1000x96 .f32) (c01 c11 : Vec Ideal S1x1x1x1000x96 .f32)
    (w02 w12 : Vec Ideal S1x1000x96 .f32) (c02 c12 : Vec Ideal S1x1x1x1000x96 .f32) :
    k0_pay18 (F := Ideal) v w01 w11 c01 c11 w02 w12 c02 c12 (ix2 r f)
      = (((v (ix2 r f) + w01 (ix3 0 r f) * c01 (ix5 0 0 0 r f)) - w11 (ix3 0 r f) * c11 (ix5 0 0 0 r f))
          + w02 (ix3 0 r f) * c02 (ix5 0 0 0 r f)) - w12 (ix3 0 r f) * c12 (ix5 0 0 0 r f) := by
  simp only [k0_pay18, k0_pay10, k0_pay11, k0_pay12, k0_pay13, k0_pay14, k0_pay15, k0_pay16, k0_pay17, subf_apply, addf_apply,
    mulf_apply, shapeCast_1ab_ab_apply, shapeCast_111ab_ab_apply]

/-- Tap 1 and the first half of tap 2 of the imaginary part, on top of the running value. -/
theorem pay19_at (v : FVec Ideal S1000x96 .f32) (w01 w11 : Vec Ideal S1x1000x96 .f32) (c01 c11 : Vec Ideal S1x1x1x1000x96 .f32)
    (w12 : Vec Ideal S1x1000x96 .f32) (c02 : Vec Ideal S1x1x1x1000x96 .f32) :
    k0_pay19 (F := Ideal) v w01 w11 c01 c11 w12 c02 (ix2 r f)
      = ((v (ix2 r f) + w11 (ix3 0 r f) * c01 (ix5 0 0 0 r f)) + w01 (ix3 0 r f) * c11 (ix5 0 0 0 r f))
          + w12 (ix3 0 r f) * c02 (ix5 0 0 0 r f) := by
  simp only [k0_pay19, k0_pay10, k0_pay11, k0_pay12, k0_pay13, k0_pay15, k0_pay16, addf_apply,
    mulf_apply, shapeCast_1ab_ab_apply, shapeCast_111ab_ab_apply]

/-- The second half of tap 2 of the imaginary part. -/
theorem pay20_at (w02 : Vec Ideal S1x1000x96 .f32) (c12 : Vec Ideal S1x1x1x1000x96 .f32) :
    k0_pay20 (F := Ideal) w02 c12 (ix2 r f) = w02 (ix3 0 r f) * c12 (ix5 0 0 0 r f) := by
  simp only [k0_pay20, k0_pay14, k0_pay17, mulf_apply, shapeCast_1ab_ab_apply, shapeCast_111ab_ab_apply]

/-- Tap 3 of the imaginary part, after tap 2 is completed. -/
theorem pay25_at (v55 v56 : FVec Ideal S1000x96 .f32) (w03 w13 : Vec Ideal S1x1000x96 .f32) (c03 c13 : Vec Ideal S1x1x1x1000x96 .f32) :
    k0_pay25 (F := Ideal) v55 v56 w03 w13 c03 c13 (ix2 r f)
      = ((v55 (ix2 r f) + v56 (ix2 r f)) + w13 (ix3 0 r f) * c03 (ix5 0 0 0 r f)) + w03 (ix3 0 r f) * c13 (ix5 0 0 0 r f) := by
  simp only [k0_pay25, k0_pay21, k0_pay22, k0_pay23, k0_pay24, addf_apply, mulf_apply, shapeCast_1ab_ab_apply,
    shapeCast_111ab_ab_apply]

/-- The four loads of tap 4, with their unit axes dropped. -/
theorem pay26_at (w : Vec Ideal S1x1000x96 .f32) : k0_pay26 (F := Ideal) w (ix2 r f) = w (ix3 0 r f) := by
  simp only [k0_pay26, shapeCast_1ab_ab_apply]
theorem pay27_at (w : Vec Ideal S1x1000x96 .f32) : k0_pay27 (F := Ideal) w (ix2 r f) = w (ix3 0 r f) := by
  simp only [k0_pay27, shapeCast_1ab_ab_apply]
theorem pay28_at (c : Vec Ideal S1x1x1x1000x96 .f32) : k0_pay28 (F := Ideal) c (ix2 r f) = c (ix5 0 0 0 r f) := by
  simp only [k0_pay28, shapeCast_111ab_ab_apply]
theorem pay29_at (c : Vec Ideal S1x1x1x1000x96 .f32) : k0_pay29 (F := Ideal) c (ix2 r f) = c (ix5 0 0 0 r f) := by
  simp only [k0_pay29, shapeCast_111ab_ab_apply]

/-- Tap 3 and the first half of tap 4 of the real part, on top of the running value. -/
theorem pay30_at (v : FVec Ideal S1000x96 .f32) (w03 w13 : Vec Ideal S1x1000x96 .f32) (c03 c13 : Vec Ideal S1x1x1x1000x96 .f32)
    (w04 : Vec Ideal S1x1000x96 .f32) (c04 : Vec Ideal S1x1x1x1000x96 .f32) :
    k0_pay30 (F := Ideal) v w03 w13 c03 c13 w04 c04 (ix2 r f)
      = ((v (ix2 r f) + w03 (ix3 0 r f) * c03 (ix5 0 0 0 r f)) - w13 (ix3 0 r f) * c13 (ix5 0 0 0 r f))
          + w04 (ix3 0 r f) * c04 (ix5 0 0 0 r f) := by
  simp only [k0_pay30, k0_pay21, k0_pay22, k0_pay23, k0_pay24, k0_pay26, k0_pay28, subf_apply, addf_apply, mulf_apply,
    shapeCast_1ab_ab_apply, shapeCast_111ab_ab_apply]

/-- The second half of tap 4 of the real part. -/
theorem pay31_at (w14 : Vec Ideal S1x1000x96 .f32) (c14 : Vec Ideal S1x1x1x1000x96 .f32) :
    k0_pay31 (F := Ideal) w14 c14 (ix2 r f) = w14 (ix3 0 r f) * c14 (ix5 0 0 0 r f) := by
  simp only [k0_pay31, k0_pay27, k0_pay29, mulf_apply, shapeCast_1ab_ab_apply, shapeCast_111ab_ab_apply]

/-- The stored real part: the accumulator completed, times the row's factor, plus the sample times one minus the factor. -/
theorem pay34_at (v83 v84 : FVec Ideal S1000x96 .f32) (a : Vec Ideal S1x1000x1 .f32) (x : Vec Ideal S1x1x1000x96 .f32) :
    k0_pay34 (F := Ideal) v83 v84 a x (ix4 0 0 r f)
      = (v83 (ix2 r f) - v84 (ix2 r f)) * a (ix3 0 r 0)
        + x (ix4 0 0 r f) * (Ideal.ofBits .f32 0x3F800000#32 - a (ix3 0 r 0)) := by
  simp only [k0_pay34, k0_pay33, k0_pay32, shapeCast_ab_11ab_apply, shapeCast_11ab_ab_apply, broadcastTo_a1_ab_apply,
    subf_apply, addf_apply, mulf_apply, broadcast_apply, shapeCast_1ab_ab_apply]
  rfl

/-- The stored imaginary part: the accumulator completed by tap 4, blended the same way. -/
theorem pay35_at (v73 v75 v77 v79 v81 : FVec Ideal S1000x96 .f32) (a : Vec Ideal S1x1000x1 .f32) (x : Vec Ideal S1x1x1000x96 .f32) :
    k0_pay35 (F := Ideal) v73 v75 v77 v79 v81 a x (ix4 0 0 r f)
      = ((v73 (ix2 r f) + v77 (ix2 r f) * v79 (ix2 r f)) + v75 (ix2 r f) * v81 (ix2 r f)) * a (ix3 0 r 0)
        + x (ix4 0 0 r f) * (Ideal.ofBits .f32 0x3F800000#32 - a (ix3 0 r 0)) := by
  simp only [k0_pay35, k0_pay33, k0_pay32, shapeCast_ab_11ab_apply, shapeCast_11ab_ab_apply, broadcastTo_a1_ab_apply,
    subf_apply, addf_apply, mulf_apply, broadcast_apply, shapeCast_1ab_ab_apply]
  rfl

end Cert.KernelIdeal.Body

end
-- ==== Proof.LibCanonUnit.lean ====
/-
  The contents a list of writes leaves, read at an entry, when the newest write goes through a unit-stride rectangle.
  With the writes listed last first: an entry inside the newest rectangle holds that write's value at the entry's
  position within the rectangle (coordinate = offset + position on every axis); an entry outside it on some axis
  (below the offset, or at or past offset + size) holds what the earlier writes left. General: nothing here depends
  on a particular program.
-/
import Idealize.ShloMosaic.Lib.Pipeline.FrameBody

namespace Idealize.ShloMosaic.View

open Idealize.ShloMosaic

variable {s : Shape} {e : EltTy} {Val : EltTy → Type}

/-- An entry at position `x` of the newest write's rectangle holds that write's value at `x`. -/
theorem canon_cons_unit_of_mem [∀ e, Nonempty (Val e)] {off off' size : Fin s.rank → ℕ} (inb : ∀ a, off a + size a ≤ s.size a)
    (w : (Rect.unit off size inb).shape.Idx → Val e) (L : List (Piece Val s e)) (y : s.Idx)
    (x : (Rect.unit off size inb).shape.Idx) (heq : off = off') (hx : ∀ a, (y a).val = off' a + (x a).val) :
    canon ((⟨Rect.unit off size inb, w⟩ : Piece Val s e) :: L) y = w x := by
  subst heq
  have hy : (Rect.unit off size inb).emb x = y := funext fun a => Fin.ext (by
    show off a + 1 * (x a).val = (y a).val
    rw [hx a, Nat.one_mul])
  exact (congrArg (canon ((⟨Rect.unit off size inb, w⟩ : Piece Val s e) :: L)) hy.symm).trans
    (canon_cons_emb (Rect.unit off size inb) w L x)

/-- An entry outside the newest write's rectangle on axis `a` holds what the earlier writes left. -/
theorem canon_cons_unit_of_not_mem [∀ e, Nonempty (Val e)] {off off' size : Fin s.rank → ℕ} (inb : ∀ a, off a + size a ≤ s.size a)
    (w : (Rect.unit off size inb).shape.Idx → Val e) (L : List (Piece Val s e)) (y : s.Idx) (heq : off = off')
    (a : Fin s.rank) (ha : (y a).val < off' a ∨ off' a + size a ≤ (y a).val) :
    canon ((⟨Rect.unit off size inb, w⟩ : Piece Val s e) :: L) y = canon L y := by
  subst heq
  refine canon_cons_of_not_mem _ L ?_
  intro hm
  have hm' : y ∈ (Rect.unit off size inb).set := hm
  have h := (Rect.mem_set_unit (inb := inb)).mp hm' a
  omega

/-- The same with the rectangle's offsets as they stand: an entry at position `x` of the newest write's rectangle. -/
theorem canon_cons_unit_hit [∀ e, Nonempty (Val e)] {off size : Fin s.rank → ℕ} (inb : ∀ a, off a + size a ≤ s.size a)
    (w : (Rect.unit off size inb).shape.Idx → Val e) (L : List (Piece Val s e)) (y : s.Idx)
    (x : (Rect.unit off size inb).shape.Idx) (hx : ∀ a, (y a).val = off a + (x a).val) :
    canon ((⟨Rect.unit off size inb, w⟩ : Piece Val s e) :: L) y = w x :=
  canon_cons_unit_of_mem inb w L y x rfl hx
/-- The same with the rectangle's offsets as they stand: an entry outside the newest write's rectangle on axis `a`. -/
theorem canon_cons_unit_skip [∀ e, Nonempty (Val e)] {off size : Fin s.rank → ℕ} (inb : ∀ a, off a + size a ≤ s.size a)
    (w : (Rect.unit off size inb).shape.Idx → Val e) (L : List (Piece Val s e)) (y : s.Idx)
    (a : Fin s.rank) (ha : (y a).val < off a ∨ off a + size a ≤ (y a).val) :
    canon ((⟨Rect.unit off size inb, w⟩ : Piece Val s e) :: L) y = canon L y :=
  canon_cons_unit_of_not_mem inb w L y rfl a ha

end Idealize.ShloMosaic.View
-- ==== Proof.Scratch.lean ====
/-
  What the scratch signal holds, entry by entry.

  The scratch has two parts (real, imaginary), 1004 rows and 96 bins. Rows 0–3 are the halo: the last four samples
  before the tile (zero at the start of a batch, otherwise carried over from the previous tile); rows 4–1003 are the
  tile's own 1000 samples, written at row offset 4 at every grid point. So entry (c, s, f) of the scratch is the tile's
  sample (c, s − 4, f) from row 4 on, and the halo's entry below. After the body, the halo rows are overwritten by the
  scratch's rows 1000–1003, that is, by the tile's last four samples (996–999): that is the next tile's halo.
-/
import proofs.«177004_j30185030156318_2_alg».proof.Proof.Gen.KernelIdeal.Skeleton
import proofs.«177004_j30185030156318_2_alg».proof.Proof.LibCanonUnit
import Idealize.ShloMosaic.Lib.ValueIdx
import Idealize.ShloMosaic.Lib.ValueLayout
import Idealize.ShloMosaic.Lib.Pipeline.Value
import Idealize.ShloMosaic.Lib.WritesUnit
import Idealize.ShloMosaic.Lib.Pipeline.Frame

noncomputable section

namespace Cert.KernelIdeal.Body

open Idealize.ShloMosaic Idealize.ShloMosaic.ValueIdx Cert.KernelIdeal Cert.KernelIdeal.Gen

variable {F : FTy → Type} [FloatOps F]

/-- The scratch signal over a halo: entry (c, s, f) is the tile's sample (c, s − 4, f) from row 4 on, the halo's below. -/
def scr (hal : Fin 2 → Fin 1004 → Fin 96 → Elt F .f32) (x0 : Vec F S1x2x1000x96 .f32) (c : Fin 2) (s : Fin 1004) (f : Fin 96) : Elt F .f32 :=
  if h : 4 ≤ s.val then x0 (ix4 (0 : Fin 1) c (⟨s.val - 4, by omega⟩ : Fin 1000) f) else hal c s f

theorem scr_of_le (hal : Fin 2 → Fin 1004 → Fin 96 → Elt F .f32) (x0 : Vec F S1x2x1000x96 .f32) (c : Fin 2) (s : Fin 1004) (f : Fin 96)
    (h : 4 ≤ s.val) : scr hal x0 c s f = x0 (ix4 (0 : Fin 1) c (⟨s.val - 4, by omega⟩ : Fin 1000) f) := dif_pos h

/-- The tile written into the scratch at row offset 4: its value at (c, q, f) is the tile's sample there. -/
theorem pay3_at (x0 : Vec F S1x2x1000x96 .f32) (c : Fin 2) (q : Fin 1000) (f : Fin 96) :
    k0_pay3 x0 (ix3 c q f) = x0 (ix4 (0 : Fin 1) c q f) := by
  simp only [k0_pay3, shapeCast_self]
  exact shapeCast_1abc_abc_apply x0 _ c q f

/-- The zero halo written at the first tile of a batch. -/
theorem pay2_at (c : Fin 2) (q : Fin 4) (f : Fin 96) :
    k0_pay2 (F := F) (ix3 c q f) = Scalar.ofBits .f32 0x00000000#32 := by
  simp only [k0_pay2, shapeCast_self]
  rfl

/-- The halo copied forward: the value written is the value read. -/
theorem pay1_eq (v : Vec F S2x4x96 .f32) : k0_pay1 v = v := by
  simp only [k0_pay1, shapeCast_self]

variable (inbX : ∀ a, (![0, 4, 0] : Fin 3 → ℕ) a + S2x1000x96.size a ≤ S2x1004x96.size a)
variable (inbZ : ∀ a, (![0, 0, 0] : Fin 3 → ℕ) a + S2x4x96.size a ≤ S2x1004x96.size a)

/-- An entry from row 4 on, after the tile is written (whatever was written before): the tile's sample. -/
theorem canon_tile_at (w : Vec F S2x1000x96 .f32) (L : List (View.Piece (Elt F) S2x1004x96 .f32)) (c : Fin 2) (s : Fin 1004) (f : Fin 96) (h : 4 ≤ s.val) :
    View.canon ((⟨Rect.unit ![0, 4, 0] S2x1000x96.size inbX, w⟩ : View.Piece (Elt F) S2x1004x96 .f32) :: L) (ix3 c s f)
      = w (ix3 c (⟨s.val - 4, by omega⟩ : Fin 1000) f) :=
  View.canon_cons_unit_of_mem (Val := Elt F) (off' := ![0, 4, 0]) inbX w L (ix3 c s f) (ix3 c (⟨s.val - 4, by omega⟩ : Fin 1000) f) rfl (fun a => by
    match a with
    | ⟨0, _⟩ => show c.val = 0 + c.val; omega
    | ⟨1, _⟩ => show s.val = 4 + (s.val - 4); omega
    | ⟨2, _⟩ => show f.val = 0 + f.val; omega)

/-- A halo entry, after the tile is written: what was there before. -/
theorem canon_tile_below (w : Vec F S2x1000x96 .f32) (L : List (View.Piece (Elt F) S2x1004x96 .f32)) (c : Fin 2) (s : Fin 1004) (f : Fin 96) (h : ¬4 ≤ s.val) :
    View.canon ((⟨Rect.unit ![0, 4, 0] S2x1000x96.size inbX, w⟩ : View.Piece (Elt F) S2x1004x96 .f32) :: L) (ix3 c s f)
      = View.canon L (ix3 c s f) := by
  have ha : ((ix3 c s f : S2x1004x96.Idx) (1 : Fin 3)).val < (![0, 4, 0] : Fin 3 → ℕ) (1 : Fin 3) := (show s.val < 4 from Nat.lt_of_not_le h)
  have e := View.canon_cons_unit_of_not_mem (Val := Elt F) (off' := ![0, 4, 0]) inbX w L (ix3 c s f) rfl (1 : Fin 3) (Or.inl ha)
  exact e

/-- THE SCRATCH AT THE FIRST TILE OF A BATCH, after the zero halo and the tile are written: the scratch signal over a zero halo. -/
theorem scratch_first (x0 : Vec F S1x2x1000x96 .f32) (c : Fin 2) (s : Fin 1004) (f : Fin 96) :
    View.canon [(⟨Rect.unit ![0, 4, 0] S2x1000x96.size inbX, k0_pay3 x0⟩ : View.Piece (Elt F) S2x1004x96 .f32),
        ⟨Rect.unit ![0, 0, 0] S2x4x96.size inbZ, k0_pay2⟩] (ix3 c s f)
      = scr (fun _ _ _ => Scalar.ofBits .f32 0x00000000#32) x0 c s f := by
  unfold scr
  by_cases h : 4 ≤ s.val
  · rw [dif_pos h, canon_tile_at inbX _ _ c s f h, pay3_at]
  · rw [dif_neg h, canon_tile_below inbX _ _ c s f h]
    refine (View.canon_cons_unit_of_mem (Val := Elt F) (off' := ![0, 0, 0]) inbZ _ [] (ix3 c s f) (ix3 c (⟨s.val, by omega⟩ : Fin 4) f) rfl (fun a => by
      match a with
      | ⟨0, _⟩ => show c.val = 0 + c.val; omega
      | ⟨1, _⟩ => show s.val = 0 + s.val; omega
      | ⟨2, _⟩ => show f.val = 0 + f.val; omega)).trans ?_
    exact pay2_at c _ f

/-- THE SCRATCH AT A LATER TILE, the tile written over what the previous point left (`xs0`): the scratch signal over the
    previous contents' halo rows. -/
theorem scratch_later (arg6 : Memref sig .tc .vmem S2x1004x96 .f32) (harg6 : arg6.IsWhole) (xs0 : Vec F S2x1004x96 .f32)
    (x0 : Vec F S1x2x1000x96 .f32) (c : Fin 2) (s : Fin 1004) (f : Fin 96) :
    arg6.view.read (Elt F) (arg6.view.writes (Elt F) (harg6.unread xs0)
        [(⟨Rect.unit ![0, 4, 0] S2x1000x96.size inbX, k0_pay3 x0⟩ : View.Piece (Elt F) S2x1004x96 .f32)]) (ix3 c s f)
      = scr (fun c s f => xs0 (ix3 c s f)) x0 c s f := by
  unfold scr
  by_cases h : 4 ≤ s.val
  · rw [dif_pos h]
    refine (View.read_writes_cons_unit_of_mem (off' := ![0, 4, 0]) arg6.view _ inbX _ [] (ix3 c s f) (ix3 c (⟨s.val - 4, by omega⟩ : Fin 1000) f) rfl (fun a => by
      match a with
      | ⟨0, _⟩ => show c.val = 0 + c.val; omega
      | ⟨1, _⟩ => show s.val = 4 + (s.val - 4); omega
      | ⟨2, _⟩ => show f.val = 0 + f.val; omega)).trans ?_
    exact pay3_at x0 c _ f
  · rw [dif_neg h]
    refine (View.read_writes_cons_unit_of_not_mem (off' := ![0, 4, 0]) arg6.view _ inbX _ [] (ix3 c s f) rfl (1 : Fin 3)
      (Or.inl (show ((ix3 c s f : S2x1004x96.Idx) (1 : Fin 3)).val < (![0, 4, 0] : Fin 3 → ℕ) (1 : Fin 3) from (show s.val < 4 from Nat.lt_of_not_le h)))).trans ?_
    rw [View.writes_nil, harg6.read_unread]

/-- The tile alone (read where the tile covers): also the scratch signal, over any halo. -/
theorem scratch_tile (hal : Fin 2 → Fin 1004 → Fin 96 → Elt F .f32) (x0 : Vec F S1x2x1000x96 .f32) (c : Fin 2) (s : Fin 1004) (f : Fin 96) (h : 4 ≤ s.val) :
    View.canon [(⟨Rect.unit ![0, 4, 0] S2x1000x96.size inbX, k0_pay3 x0⟩ : View.Piece (Elt F) S2x1004x96 .f32)] (ix3 c s f)
      = scr hal x0 c s f := by
  rw [scr_of_le hal x0 c s f h, canon_tile_at inbX _ _ c s f h, pay3_at]

end Cert.KernelIdeal.Body

end
-- ==== Proof.Tile.lean ====
/-
  One time tile's output as a function of the scratch signal and the tile's blocks, entry by entry.

  With Y the scratch signal (part c, scratch row s, bin f), x1 the tile's coefficients (part, tap, row, bin), x2 the
  tile's blend factors and x0 the tile's own samples, the body leaves at (c, r, f)
      acc(c, r, f) · x2(r) + x0(c, r, f) · (1 − x2(r)),
  where the real part's accumulator runs  acc + Y(0, r + k, f)·x1(0, k, r, f) − Y(1, r + k, f)·x1(1, k, r, f)  over the
  taps k = 0 … 4 from zero, and the imaginary part's  acc + Y(1, r + k, f)·x1(0, k, r, f) + Y(0, r + k, f)·x1(1, k, r, f).
  The windows the body loads are read at an entry here: row r of the 1000-row window of the scratch starting at row k is
  scratch row k + r; row r of coefficient plane (c, k) is entry (c, k, r, ·); row r of sample plane c is entry (c, r, ·).
-/
import proofs.«177004_j30185030156318_2_alg».proof.Proof.Gen.KernelIdeal.Skeleton
import Idealize.ShloMosaic.Lib.ValueIdx
import Idealize.ShloMosaic.Lib.Pipeline.Value

noncomputable section

namespace Cert.KernelIdeal.Body

open Idealize.ShloMosaic Idealize.ShloMosaic.ValueIdx Cert.KernelIdeal Cert.KernelIdeal.Gen

/-- The real part's accumulator after the five taps, at row r and bin f. -/
def accRe (Y : Fin 2 → Fin 1004 → Fin 96 → EReal) (x1 : Vec Ideal S1x2x5x1000x96 .f32) (r : Fin 1000) (f : Fin 96) : EReal :=
  ((((((((((Ideal.ofBits .f32 0x00000000#32 + Y (⟨0, by omega⟩ : Fin 2) (⟨0 + r.val, by omega⟩ : Fin 1004) f * x1 (ix5 (0 : Fin 1) (⟨0, by omega⟩ : Fin 2) (⟨0, by omega⟩ : Fin 5) r f))
      - Y (⟨1, by omega⟩ : Fin 2) (⟨0 + r.val, by omega⟩ : Fin 1004) f * x1 (ix5 (0 : Fin 1) (⟨1, by omega⟩ : Fin 2) (⟨0, by omega⟩ : Fin 5) r f)) + Y (⟨0, by omega⟩ : Fin 2) (⟨1 + r.val, by omega⟩ : Fin 1004) f * x1 (ix5 (0 : Fin 1) (⟨0, by omega⟩ : Fin 2) (⟨1, by omega⟩ : Fin 5) r f))
      - Y (⟨1, by omega⟩ : Fin 2) (⟨1 + r.val, by omega⟩ : Fin 1004) f * x1 (ix5 (0 : Fin 1) (⟨1, by omega⟩ : Fin 2) (⟨1, by omega⟩ : Fin 5) r f)) + Y (⟨0, by omega⟩ : Fin 2) (⟨2 + r.val, by omega⟩ : Fin 1004) f * x1 (ix5 (0 : Fin 1) (⟨0, by omega⟩ : Fin 2) (⟨2, by omega⟩ : Fin 5) r f))
      - Y (⟨1, by omega⟩ : Fin 2) (⟨2 + r.val, by omega⟩ : Fin 1004) f * x1 (ix5 (0 : Fin 1) (⟨1, by omega⟩ : Fin 2) (⟨2, by omega⟩ : Fin 5) r f)) + Y (⟨0, by omega⟩ : Fin 2) (⟨3 + r.val, by omega⟩ : Fin 1004) f * x1 (ix5 (0 : Fin 1) (⟨0, by omega⟩ : Fin 2) (⟨3, by omega⟩ : Fin 5) r f))
      - Y (⟨1, by omega⟩ : Fin 2) (⟨3 + r.val, by omega⟩ : Fin 1004) f * x1 (ix5 (0 : Fin 1) (⟨1, by omega⟩ : Fin 2) (⟨3, by omega⟩ : Fin 5) r f)) + Y (⟨0, by omega⟩ : Fin 2) (⟨4 + r.val, by omega⟩ : Fin 1004) f * x1 (ix5 (0 : Fin 1) (⟨0, by omega⟩ : Fin 2) (⟨4, by omega⟩ : Fin 5) r f))
      - Y (⟨1, by omega⟩ : Fin 2) (⟨4 + r.val, by omega⟩ : Fin 1004) f * x1 (ix5 (0 : Fin 1) (⟨1, by omega⟩ : Fin 2) (⟨4, by omega⟩ : Fin 5) r f))

/-- The imaginary part's accumulator after the five taps, at row r and bin f. -/
def accIm (Y : Fin 2 → Fin 1004 → Fin 96 → EReal) (x1 : Vec Ideal S1x2x5x1000x96 .f32) (r : Fin 1000) (f : Fin 96) : EReal :=
  ((((((((((Ideal.ofBits .f32 0x00000000#32 + Y (⟨1, by omega⟩ : Fin 2) (⟨0 + r.val, by omega⟩ : Fin 1004) f * x1 (ix5 (0 : Fin 1) (⟨0, by omega⟩ : Fin 2) (⟨0, by omega⟩ : Fin 5) r f))
      + Y (⟨0, by omega⟩ : Fin 2) (⟨0 + r.val, by omega⟩ : Fin 1004) f * x1 (ix5 (0 : Fin 1) (⟨1, by omega⟩ : Fin 2) (⟨0, by omega⟩ : Fin 5) r f)) + Y (⟨1, by omega⟩ : Fin 2) (⟨1 + r.val, by omega⟩ : Fin 1004) f * x1 (ix5 (0 : Fin 1) (⟨0, by omega⟩ : Fin 2) (⟨1, by omega⟩ : Fin 5) r f))
      + Y (⟨0, by omega⟩ : Fin 2) (⟨1 + r.val, by omega⟩ : Fin 1004) f * x1 (ix5 (0 : Fin 1) (⟨1, by omega⟩ : Fin 2) (⟨1, by omega⟩ : Fin 5) r f)) + Y (⟨1, by omega⟩ : Fin 2) (⟨2 + r.val, by omega⟩ : Fin 1004) f * x1 (ix5 (0 : Fin 1) (⟨0, by omega⟩ : Fin 2) (⟨2, by omega⟩ : Fin 5) r f))
      + Y (⟨0, by omega⟩ : Fin 2) (⟨2 + r.val, by omega⟩ : Fin 1004) f * x1 (ix5 (0 : Fin 1) (⟨1, by omega⟩ : Fin 2) (⟨2, by omega⟩ : Fin 5) r f)) + Y (⟨1, by omega⟩ : Fin 2) (⟨3 + r.val, by omega⟩ : Fin 1004) f * x1 (ix5 (0 : Fin 1) (⟨0, by omega⟩ : Fin 2) (⟨3, by omega⟩ : Fin 5) r f))
      + Y (⟨0, by omega⟩ : Fin 2) (⟨3 + r.val, by omega⟩ : Fin 1004) f * x1 (ix5 (0 : Fin 1) (⟨1, by omega⟩ : Fin 2) (⟨3, by omega⟩ : Fin 5) r f)) + Y (⟨1, by omega⟩ : Fin 2) (⟨4 + r.val, by omega⟩ : Fin 1004) f * x1 (ix5 (0 : Fin 1) (⟨0, by omega⟩ : Fin 2) (⟨4, by omega⟩ : Fin 5) r f))
      + Y (⟨0, by omega⟩ : Fin 2) (⟨4 + r.val, by omega⟩ : Fin 1004) f * x1 (ix5 (0 : Fin 1) (⟨1, by omega⟩ : Fin 2) (⟨4, by omega⟩ : Fin 5) r f))

/-- The tile's output at (c, r, f): the accumulator blended with the tile's own sample by the row's factor. -/
def tileOut (Y : Fin 2 → Fin 1004 → Fin 96 → EReal) (x0 : Vec Ideal S1x2x1000x96 .f32) (x1 : Vec Ideal S1x2x5x1000x96 .f32)
    (x2 : Vec Ideal S1x1000x1 .f32) (c : Fin 2) (r : Fin 1000) (f : Fin 96) : EReal :=
  (if c.val = 0 then accRe Y x1 r f else accIm Y x1 r f) * x2 (ix3 (0 : Fin 1) r (0 : Fin 1))
    + x0 (ix4 (0 : Fin 1) c r f) * (Ideal.ofBits .f32 0x3F800000#32 - x2 (ix3 (0 : Fin 1) r (0 : Fin 1)))

/-! ## The loaded windows, read at an entry -/

/-- Row r, bin f of the scratch's 1000-row window of part c starting at row k is scratch entry (c, k + r, f). -/
theorem win_idx (off : Fin 3 → ℕ) (inb : ∀ a, off a + S1x1000x96.size a ≤ S2x1004x96.size a) (c k : ℕ) (hc : c < 2) (hk : k + 1000 ≤ 1004)
    (hoff : off = ![c, k, 0]) (r : Fin 1000) (f : Fin 96) :
    (Rect.unit (s := S2x1004x96) off S1x1000x96.size inb).toLoadRect.idx (ix3 (0 : Fin 1) r f)
      = ix3 (⟨c, hc⟩ : Fin 2) (⟨k + r.val, by omega⟩ : Fin 1004) f := by
  subst hoff
  funext a
  apply Fin.ext
  match a with
  | ⟨0, _⟩ => show c + 1 * 0 = c; omega
  | ⟨1, _⟩ => show k + 1 * r.val = k + r.val; omega
  | ⟨2, _⟩ => show 0 + 1 * f.val = f.val; omega

/-- Row r, bin f of the coefficient plane of part c and tap k is entry (0, c, k, r, f) of the tile's coefficients. -/
theorem coef_idx (off : Fin 5 → ℕ) (inb : ∀ a, off a + S1x1x1x1000x96.size a ≤ S1x2x5x1000x96.size a) (c k : ℕ) (hc : c < 2) (hk : k < 5)
    (hoff : off = ![0, c, k, 0, 0]) (r : Fin 1000) (f : Fin 96) :
    (Rect.unit (s := S1x2x5x1000x96) off S1x1x1x1000x96.size inb).toLoadRect.idx (ix5 (0 : Fin 1) (0 : Fin 1) (0 : Fin 1) r f)
      = ix5 (0 : Fin 1) (⟨c, hc⟩ : Fin 2) (⟨k, hk⟩ : Fin 5) r f := by
  subst hoff
  funext a
  apply Fin.ext
  match a with
  | ⟨0, _⟩ => show 0 + 1 * 0 = 0; omega
  | ⟨1, _⟩ => show c + 1 * 0 = c; omega
  | ⟨2, _⟩ => show k + 1 * 0 = k; omega
  | ⟨3, _⟩ => show 0 + 1 * r.val = r.val; omega
  | ⟨4, _⟩ => show 0 + 1 * f.val = f.val; omega

/-- Row r, bin f of the sample plane of part c is entry (0, c, r, f) of the tile's samples. -/
theorem plane_idx (off : Fin 4 → ℕ) (inb : ∀ a, off a + S1x1x1000x96.size a ≤ S1x2x1000x96.size a) (c : ℕ) (hc : c < 2)
    (hoff : off = ![0, c, 0, 0]) (r : Fin 1000) (f : Fin 96) :
    (Rect.unit (s := S1x2x1000x96) off S1x1x1000x96.size inb).toLoadRect.idx (ix4 (0 : Fin 1) (0 : Fin 1) r f)
      = ix4 (0 : Fin 1) (⟨c, hc⟩ : Fin 2) r f := by
  subst hoff
  funext a
  apply Fin.ext
  match a with
  | ⟨0, _⟩ => show 0 + 1 * 0 = 0; omega
  | ⟨1, _⟩ => show c + 1 * 0 = c; omega
  | ⟨2, _⟩ => show 0 + 1 * r.val = r.val; omega
  | ⟨3, _⟩ => show 0 + 1 * f.val = f.val; omega

/-- Row r of the whole factor column is entry (0, r, 0). -/
theorem col_idx (off : Fin 3 → ℕ) (inb : ∀ a, off a + S1x1000x1.size a ≤ S1x1000x1.size a)
    (hoff : off = ![0, 0, 0]) (r : Fin 1000) :
    (Rect.unit (s := S1x1000x1) off S1x1000x1.size inb).toLoadRect.idx (ix3 (0 : Fin 1) r (0 : Fin 1))
      = ix3 (0 : Fin 1) r (0 : Fin 1) := by
  subst hoff
  funext a
  apply Fin.ext
  match a with
  | ⟨0, _⟩ => show 0 + 1 * 0 = 0; omega
  | ⟨1, _⟩ => show 0 + 1 * r.val = r.val; omega
  | ⟨2, _⟩ => show 0 + 1 * 0 = 0; omega

end Cert.KernelIdeal.Body

end
-- ==== Proof.Pieces.lean ====
/-
  What the body's stores leave, entry by entry, in the two cases of its one condition.

  The output block's two planes (real, imaginary) are each written by one store, so an entry of plane p is that store's
  value at the entry; the values the store was computed from are windows of the scratch signal, planes of the tile's
  coefficients, the factor column and planes of the tile's samples, each read at the matching entry. At the first tile
  of a batch the scratch signal is the tile over a zero halo; at a later tile it is the tile over the four rows the
  previous point left. In both cases the body ends by copying scratch rows 1000–1003 — the tile's last four samples —
  into rows 0–3: the halo the next tile finds.
-/
import proofs.«177004_j30185030156318_2_alg».proof.Proof.Gen.KernelIdeal.Frame
import proofs.«177004_j30185030156318_2_alg».proof.Proof.Taps
import proofs.«177004_j30185030156318_2_alg».proof.Proof.Scratch
import proofs.«177004_j30185030156318_2_alg».proof.Proof.Tile
import proofs.«177004_j30185030156318_2_alg».proof.Proof.LibCanonUnit
import Idealize.ShloMosaic.Lib.Tactic

set_option maxRecDepth 16384
set_option maxHeartbeats 400000

noncomputable section

namespace Cert.KernelIdeal.Body

open Idealize.ShloMosaic Idealize.ShloMosaic.ValueIdx Cert.KernelIdeal Cert.KernelIdeal.Gen
open Idealize.ShloMosaic.Tactic

theorem hz4 : (![0, 0, 0, 0] : Fin 4 → ℕ) = fun _ => 0 := funext fun a => by fin_cases a <;> rfl
theorem hz3 : (![0, 0, 0] : Fin 3 → ℕ) = fun _ => 0 := funext fun a => by fin_cases a <;> rfl

theorem out_first_re (c : Dev nD) (i : grid0.Coords) (arg2 : Memref sig .tc .vmem S1x2x1000x96 .f32) (harg2 : arg2.IsWhole) (arg3 : Memref sig .tc .vmem S1x2x5x1000x96 .f32) (harg3 : arg3.IsWhole) (arg4 : Memref sig .tc .vmem S1x1000x1 .f32) (harg4 : arg4.IsWhole) (arg5 : Memref sig .tc .vmem S1x2x1000x96 .f32) (harg5 : arg5.IsWhole) (arg6 : Memref sig .tc .vmem S2x1004x96 .f32) (harg6 : arg6.IsWhole) (hc0 : cond0_0 i)
    (x0 : Vec Ideal S1x2x1000x96 .f32) (x1 : Vec Ideal S1x2x5x1000x96 .f32) (x2 : Vec Ideal S1x1000x1 .f32) (r : Fin 1000) (f : Fin 96) :
    out0_A_3 (F := Ideal) c i arg2 harg2 arg3 harg3 arg4 harg4 arg5 harg5 arg6 harg6 hc0 x0 x1 x2 (ix4 (0 : Fin 1) (0 : Fin 2) r f)
      = tileOut (scr (fun _ _ _ => Scalar.ofBits .f32 0x00000000#32) x0) x0 x1 x2 (0 : Fin 2) r f := by
  unfold out0_A_3
  rw [View.read_writes_eq_canon _ _ _ (cover0_A_3 c i arg2 harg2 arg3 harg3 arg4 harg4 arg5 harg5 arg6 harg6 hc0 x0 x1 x2)]
  unfold kernelRun0_A
  dsimp only
  sl_unfold_words
  refine (View.canon_cons_unit_skip _ _ _ _ (1 : Fin 4) (Or.inl (show (0 : ℕ) < 1 by omega))).trans ?_
  refine (View.canon_cons_unit_hit _ _ _ _ (ix4 (0 : Fin 1) (0 : Fin 1) r f) (fun a => by
    match a with
    | ⟨0, _⟩ => show 0 = 0 + 0; omega
    | ⟨1, _⟩ => show 0 = 0 + 0; omega
    | ⟨2, _⟩ => show r.val = 0 + r.val; omega
    | ⟨3, _⟩ => show f.val = 0 + f.val; omega)).trans ?_
  rw [pay34_at, pay30_at, pay18_at, pay8_at, pay31_at]
  simp only [View.readCov_eq_canon', View.readAt_eq_ld, harg2.read_unread, harg3.read_unread, harg4.read_unread, harg6.read_unread,
    View.ld_unit_zero (S := S1x2x1000x96) hz4]
  simp only [View.ld,
    win_idx ![0, 0, 0] _ 0 0 (by omega) (by omega) rfl r f,
    coef_idx ![0, 0, 0, 0, 0] _ 0 0 (by omega) (by omega) rfl r f,
    win_idx ![1, 0, 0] _ 1 0 (by omega) (by omega) rfl r f,
    coef_idx ![0, 1, 0, 0, 0] _ 1 0 (by omega) (by omega) rfl r f,
    win_idx ![0, 1, 0] _ 0 1 (by omega) (by omega) rfl r f,
    coef_idx ![0, 0, 1, 0, 0] _ 0 1 (by omega) (by omega) rfl r f,
    win_idx ![1, 1, 0] _ 1 1 (by omega) (by omega) rfl r f,
    coef_idx ![0, 1, 1, 0, 0] _ 1 1 (by omega) (by omega) rfl r f,
    win_idx ![0, 2, 0] _ 0 2 (by omega) (by omega) rfl r f,
    coef_idx ![0, 0, 2, 0, 0] _ 0 2 (by omega) (by omega) rfl r f,
    win_idx ![1, 2, 0] _ 1 2 (by omega) (by omega) rfl r f,
    coef_idx ![0, 1, 2, 0, 0] _ 1 2 (by omega) (by omega) rfl r f,
    win_idx ![0, 3, 0] _ 0 3 (by omega) (by omega) rfl r f,
    coef_idx ![0, 0, 3, 0, 0] _ 0 3 (by omega) (by omega) rfl r f,
    win_idx ![1, 3, 0] _ 1 3 (by omega) (by omega) rfl r f,
    coef_idx ![0, 1, 3, 0, 0] _ 1 3 (by omega) (by omega) rfl r f,
    win_idx ![0, 4, 0] _ 0 4 (by omega) (by omega) rfl r f,
    coef_idx ![0, 0, 4, 0, 0] _ 0 4 (by omega) (by omega) rfl r f,
    win_idx ![1, 4, 0] _ 1 4 (by omega) (by omega) rfl r f,
    coef_idx ![0, 1, 4, 0, 0] _ 1 4 (by omega) (by omega) rfl r f,
    plane_idx ![0, 0, 0, 0] _ 0 (by omega) rfl r f,
    col_idx ![0, 0, 0] _ rfl r,
    scratch_first _ _ x0]
  rfl

theorem out_first_im (c : Dev nD) (i : grid0.Coords) (arg2 : Memref sig .tc .vmem S1x2x1000x96 .f32) (harg2 : arg2.IsWhole) (arg3 : Memref sig .tc .vmem S1x2x5x1000x96 .f32) (harg3 : arg3.IsWhole) (arg4 : Memref sig .tc .vmem S1x1000x1 .f32) (harg4 : arg4.IsWhole) (arg5 : Memref sig .tc .vmem S1x2x1000x96 .f32) (harg5 : arg5.IsWhole) (arg6 : Memref sig .tc .vmem S2x1004x96 .f32) (harg6 : arg6.IsWhole) (hc0 : cond0_0 i)
    (x0 : Vec Ideal S1x2x1000x96 .f32) (x1 : Vec Ideal S1x2x5x1000x96 .f32) (x2 : Vec Ideal S1x1000x1 .f32) (r : Fin 1000) (f : Fin 96) :
    out0_A_3 (F := Ideal) c i arg2 harg2 arg3 harg3 arg4 harg4 arg5 harg5 arg6 harg6 hc0 x0 x1 x2 (ix4 (0 : Fin 1) (1 : Fin 2) r f)
      = tileOut (scr (fun _ _ _ => Scalar.ofBits .f32 0x00000000#32) x0) x0 x1 x2 (1 : Fin 2) r f := by
  unfold out0_A_3
  rw [View.read_writes_eq_canon _ _ _ (cover0_A_3 c i arg2 harg2 arg3 harg3 arg4 harg4 arg5 harg5 arg6 harg6 hc0 x0 x1 x2)]
  unfold kernelRun0_A
  dsimp only
  sl_unfold_words
  refine (View.canon_cons_unit_hit _ _ _ _ (ix4 (0 : Fin 1) (0 : Fin 1) r f) (fun a => by
    match a with
    | ⟨0, _⟩ => show 0 = 0 + 0; omega
    | ⟨1, _⟩ => show 1 = 1 + 0; omega
    | ⟨2, _⟩ => show r.val = 0 + r.val; omega
    | ⟨3, _⟩ => show f.val = 0 + f.val; omega)).trans ?_
  rw [pay35_at, pay25_at, pay19_at, pay9_at, pay20_at, pay26_at, pay27_at, pay28_at, pay29_at]
  simp only [View.readCov_eq_canon', View.readAt_eq_ld, harg2.read_unread, harg3.read_unread, harg4.read_unread, harg6.read_unread,
    View.ld_unit_zero (S := S1x2x1000x96) hz4]
  simp only [View.ld,
    win_idx ![0, 0, 0] _ 0 0 (by omega) (by omega) rfl r f,
    coef_idx ![0, 0, 0, 0, 0] _ 0 0 (by omega) (by omega) rfl r f,
    win_idx ![1, 0, 0] _ 1 0 (by omega) (by omega) rfl r f,
    coef_idx ![0, 1, 0, 0, 0] _ 1 0 (by omega) (by omega) rfl r f,
    win_idx ![0, 1, 0] _ 0 1 (by omega) (by omega) rfl r f,
    coef_idx ![0, 0, 1, 0, 0] _ 0 1 (by omega) (by omega) rfl r f,
    win_idx ![1, 1, 0] _ 1 1 (by omega) (by omega) rfl r f,
    coef_idx ![0, 1, 1, 0, 0] _ 1 1 (by omega) (by omega) rfl r f,
    win_idx ![0, 2, 0] _ 0 2 (by omega) (by omega) rfl r f,
    coef_idx ![0, 0, 2, 0, 0] _ 0 2 (by omega) (by omega) rfl r f,
    win_idx ![1, 2, 0] _ 1 2 (by omega) (by omega) rfl r f,
    coef_idx ![0, 1, 2, 0, 0] _ 1 2 (by omega) (by omega) rfl r f,
    win_idx ![0, 3, 0] _ 0 3 (by omega) (by omega) rfl r f,
    coef_idx ![0, 0, 3, 0, 0] _ 0 3 (by omega) (by omega) rfl r f,
    win_idx ![1, 3, 0] _ 1 3 (by omega) (by omega) rfl r f,
    coef_idx ![0, 1, 3, 0, 0] _ 1 3 (by omega) (by omega) rfl r f,
    win_idx ![0, 4, 0] _ 0 4 (by omega) (by omega) rfl r f,
    coef_idx ![0, 0, 4, 0, 0] _ 0 4 (by omega) (by omega) rfl r f,
    win_idx ![1, 4, 0] _ 1 4 (by omega) (by omega) rfl r f,
    coef_idx ![0, 1, 4, 0, 0] _ 1 4 (by omega) (by omega) rfl r f,
    plane_idx ![0, 1, 0, 0] _ 1 (by omega) rfl r f,
    col_idx ![0, 0, 0] _ rfl r,
    scratch_first _ _ x0]
  rfl

theorem out_later_re (c : Dev nD) (i : grid0.Coords) (arg2 : Memref sig .tc .vmem S1x2x1000x96 .f32) (harg2 : arg2.IsWhole) (arg3 : Memref sig .tc .vmem S1x2x5x1000x96 .f32) (harg3 : arg3.IsWhole) (arg4 : Memref sig .tc .vmem S1x1000x1 .f32) (harg4 : arg4.IsWhole) (arg5 : Memref sig .tc .vmem S1x2x1000x96 .f32) (harg5 : arg5.IsWhole) (arg6 : Memref sig .tc .vmem S2x1004x96 .f32) (harg6 : arg6.IsWhole) (hc0 : ¬cond0_0 i)
    (x0 : Vec Ideal S1x2x1000x96 .f32) (x1 : Vec Ideal S1x2x5x1000x96 .f32) (x2 : Vec Ideal S1x1000x1 .f32) (xs0 : Vec Ideal S2x1004x96 .f32) (r : Fin 1000) (f : Fin 96) :
    out0_B_3 (F := Ideal) c i arg2 harg2 arg3 harg3 arg4 harg4 arg5 harg5 arg6 harg6 hc0 x0 x1 x2 xs0 (ix4 (0 : Fin 1) (0 : Fin 2) r f)
      = tileOut (scr (fun c s f => xs0 (ix3 c s f)) x0) x0 x1 x2 (0 : Fin 2) r f := by
  unfold out0_B_3
  rw [View.read_writes_eq_canon _ _ _ (cover0_B_3 c i arg2 harg2 arg3 harg3 arg4 harg4 arg5 harg5 arg6 harg6 hc0 x0 x1 x2 xs0)]
  unfold kernelRun0_B
  dsimp only
  sl_unfold_words
  refine (View.canon_cons_unit_skip _ _ _ _ (1 : Fin 4) (Or.inl (show (0 : ℕ) < 1 by omega))).trans ?_
  refine (View.canon_cons_unit_hit _ _ _ _ (ix4 (0 : Fin 1) (0 : Fin 1) r f) (fun a => by
    match a with
    | ⟨0, _⟩ => show 0 = 0 + 0; omega
    | ⟨1, _⟩ => show 0 = 0 + 0; omega
    | ⟨2, _⟩ => show r.val = 0 + r.val; omega
    | ⟨3, _⟩ => show f.val = 0 + f.val; omega)).trans ?_
  rw [pay34_at, pay30_at, pay18_at, pay8_at, pay31_at]
  simp only [View.readCov_eq_canon', View.readAt_eq_ld, harg2.read_unread, harg3.read_unread, harg4.read_unread, harg6.read_unread,
    View.ld_unit_zero (S := S1x2x1000x96) hz4]
  simp only [View.ld,
    win_idx ![0, 0, 0] _ 0 0 (by omega) (by omega) rfl r f,
    coef_idx ![0, 0, 0, 0, 0] _ 0 0 (by omega) (by omega) rfl r f,
    win_idx ![1, 0, 0] _ 1 0 (by omega) (by omega) rfl r f,
    coef_idx ![0, 1, 0, 0, 0] _ 1 0 (by omega) (by omega) rfl r f,
    win_idx ![0, 1, 0] _ 0 1 (by omega) (by omega) rfl r f,
    coef_idx ![0, 0, 1, 0, 0] _ 0 1 (by omega) (by omega) rfl r f,
    win_idx ![1, 1, 0] _ 1 1 (by omega) (by omega) rfl r f,
    coef_idx ![0, 1, 1, 0, 0] _ 1 1 (by omega) (by omega) rfl r f,
    win_idx ![0, 2, 0] _ 0 2 (by omega) (by omega) rfl r f,
    coef_idx ![0, 0, 2, 0, 0] _ 0 2 (by omega) (by omega) rfl r f,
    win_idx ![1, 2, 0] _ 1 2 (by omega) (by omega) rfl r f,
    coef_idx ![0, 1, 2, 0, 0] _ 1 2 (by omega) (by omega) rfl r f,
    win_idx ![0, 3, 0] _ 0 3 (by omega) (by omega) rfl r f,
    coef_idx ![0, 0, 3, 0, 0] _ 0 3 (by omega) (by omega) rfl r f,
    win_idx ![1, 3, 0] _ 1 3 (by omega) (by omega) rfl r f,
    coef_idx ![0, 1, 3, 0, 0] _ 1 3 (by omega) (by omega) rfl r f,
    win_idx ![0, 4, 0] _ 0 4 (by omega) (by omega) rfl r f,
    coef_idx ![0, 0, 4, 0, 0] _ 0 4 (by omega) (by omega) rfl r f,
    win_idx ![1, 4, 0] _ 1 4 (by omega) (by omega) rfl r f,
    coef_idx ![0, 1, 4, 0, 0] _ 1 4 (by omega) (by omega) rfl r f,
    plane_idx ![0, 0, 0, 0] _ 0 (by omega) rfl r f,
    col_idx ![0, 0, 0] _ rfl r,
    scratch_later _ arg6 harg6 xs0 x0,
    scratch_tile _ (fun c s f => xs0 (ix3 c s f)) x0 (⟨0, by omega⟩ : Fin 2) (⟨4 + r.val, by omega⟩ : Fin 1004) f (by show 4 ≤ 4 + r.val; omega),
    scratch_tile _ (fun c s f => xs0 (ix3 c s f)) x0 (⟨1, by omega⟩ : Fin 2) (⟨4 + r.val, by omega⟩ : Fin 1004) f (by show 4 ≤ 4 + r.val; omega)]
  rfl

theorem out_later_im (c : Dev nD) (i : grid0.Coords) (arg2 : Memref sig .tc .vmem S1x2x1000x96 .f32) (harg2 : arg2.IsWhole) (arg3 : Memref sig .tc .vmem S1x2x5x1000x96 .f32) (harg3 : arg3.IsWhole) (arg4 : Memref sig .tc .vmem S1x1000x1 .f32) (harg4 : arg4.IsWhole) (arg5 : Memref sig .tc .vmem S1x2x1000x96 .f32) (harg5 : arg5.IsWhole) (arg6 : Memref sig .tc .vmem S2x1004x96 .f32) (harg6 : arg6.IsWhole) (hc0 : ¬cond0_0 i)
    (x0 : Vec Ideal S1x2x1000x96 .f32) (x1 : Vec Ideal S1x2x5x1000x96 .f32) (x2 : Vec Ideal S1x1000x1 .f32) (xs0 : Vec Ideal S2x1004x96 .f32) (r : Fin 1000) (f : Fin 96) :
    out0_B_3 (F := Ideal) c i arg2 harg2 arg3 harg3 arg4 harg4 arg5 harg5 arg6 harg6 hc0 x0 x1 x2 xs0 (ix4 (0 : Fin 1) (1 : Fin 2) r f)
      = tileOut (scr (fun c s f => xs0 (ix3 c s f)) x0) x0 x1 x2 (1 : Fin 2) r f := by
  unfold out0_B_3
  rw [View.read_writes_eq_canon _ _ _ (cover0_B_3 c i arg2 harg2 arg3 harg3 arg4 harg4 arg5 harg5 arg6 harg6 hc0 x0 x1 x2 xs0)]
  unfold kernelRun0_B
  dsimp only
  sl_unfold_words
  refine (View.canon_cons_unit_hit _ _ _ _ (ix4 (0 : Fin 1) (0 : Fin 1) r f) (fun a => by
    match a with
    | ⟨0, _⟩ => show 0 = 0 + 0; omega
    | ⟨1, _⟩ => show 1 = 1 + 0; omega
    | ⟨2, _⟩ => show r.val = 0 + r.val; omega
    | ⟨3, _⟩ => show f.val = 0 + f.val; omega)).trans ?_
  rw [pay35_at, pay25_at, pay19_at, pay9_at, pay20_at, pay26_at, pay27_at, pay28_at, pay29_at]
  simp only [View.readCov_eq_canon', View.readAt_eq_ld, harg2.read_unread, harg3.read_unread, harg4.read_unread, harg6.read_unread,
    View.ld_unit_zero (S := S1x2x1000x96) hz4]
  simp only [View.ld,
    win_idx ![0, 0, 0] _ 0 0 (by omega) (by omega) rfl r f,
    coef_idx ![0, 0, 0, 0, 0] _ 0 0 (by omega) (by omega) rfl r f,
    win_idx ![1, 0, 0] _ 1 0 (by omega) (by omega) rfl r f,
    coef_idx ![0, 1, 0, 0, 0] _ 1 0 (by omega) (by omega) rfl r f,
    win_idx ![0, 1, 0] _ 0 1 (by omega) (by omega) rfl r f,
    coef_idx ![0, 0, 1, 0, 0] _ 0 1 (by omega) (by omega) rfl r f,
    win_idx ![1, 1, 0] _ 1 1 (by omega) (by omega) rfl r f,
    coef_idx ![0, 1, 1, 0, 0] _ 1 1 (by omega) (by omega) rfl r f,
    win_idx ![0, 2, 0] _ 0 2 (by omega) (by omega) rfl r f,
    coef_idx ![0, 0, 2, 0, 0] _ 0 2 (by omega) (by omega) rfl r f,
    win_idx ![1, 2, 0] _ 1 2 (by omega) (by omega) rfl r f,
    coef_idx ![0, 1, 2, 0, 0] _ 1 2 (by omega) (by omega) rfl r f,
    win_idx ![0, 3, 0] _ 0 3 (by omega) (by omega) rfl r f,
    coef_idx ![0, 0, 3, 0, 0] _ 0 3 (by omega) (by omega) rfl r f,
    win_idx ![1, 3, 0] _ 1 3 (by omega) (by omega) rfl r f,
    coef_idx ![0, 1, 3, 0, 0] _ 1 3 (by omega) (by omega) rfl r f,
    win_idx ![0, 4, 0] _ 0 4 (by omega) (by omega) rfl r f,
    coef_idx ![0, 0, 4, 0, 0] _ 0 4 (by omega) (by omega) rfl r f,
    win_idx ![1, 4, 0] _ 1 4 (by omega) (by omega) rfl r f,
    coef_idx ![0, 1, 4, 0, 0] _ 1 4 (by omega) (by omega) rfl r f,
    plane_idx ![0, 1, 0, 0] _ 1 (by omega) rfl r f,
    col_idx ![0, 0, 0] _ rfl r,
    scratch_later _ arg6 harg6 xs0 x0,
    scratch_tile _ (fun c s f => xs0 (ix3 c s f)) x0 (⟨0, by omega⟩ : Fin 2) (⟨4 + r.val, by omega⟩ : Fin 1004) f (by show 4 ≤ 4 + r.val; omega),
    scratch_tile _ (fun c s f => xs0 (ix3 c s f)) x0 (⟨1, by omega⟩ : Fin 2) (⟨4 + r.val, by omega⟩ : Fin 1004) f (by show 4 ≤ 4 + r.val; omega)]
  rfl

/-- THE FIRST TILE OF A BATCH: what the body leaves in the output block, entry by entry, is the tile's output over a zero halo. -/
theorem out_first (c : Dev nD) (i : grid0.Coords) (arg2 : Memref sig .tc .vmem S1x2x1000x96 .f32) (harg2 : arg2.IsWhole) (arg3 : Memref sig .tc .vmem S1x2x5x1000x96 .f32) (harg3 : arg3.IsWhole) (arg4 : Memref sig .tc .vmem S1x1000x1 .f32) (harg4 : arg4.IsWhole) (arg5 : Memref sig .tc .vmem S1x2x1000x96 .f32) (harg5 : arg5.IsWhole) (arg6 : Memref sig .tc .vmem S2x1004x96 .f32) (harg6 : arg6.IsWhole) (hc0 : cond0_0 i)
    (x0 : Vec Ideal S1x2x1000x96 .f32) (x1 : Vec Ideal S1x2x5x1000x96 .f32) (x2 : Vec Ideal S1x1000x1 .f32) (p : Fin 2) (r : Fin 1000) (f : Fin 96) :
    out0_A_3 (F := Ideal) c i arg2 harg2 arg3 harg3 arg4 harg4 arg5 harg5 arg6 harg6 hc0 x0 x1 x2 (ix4 (0 : Fin 1) p r f)
      = tileOut (scr (fun _ _ _ => Scalar.ofBits .f32 0x00000000#32) x0) x0 x1 x2 p r f := by
  match p with
  | ⟨0, _⟩ => exact out_first_re c i arg2 harg2 arg3 harg3 arg4 harg4 arg5 harg5 arg6 harg6 hc0 x0 x1 x2 r f
  | ⟨1, _⟩ => exact out_first_im c i arg2 harg2 arg3 harg3 arg4 harg4 arg5 harg5 arg6 harg6 hc0 x0 x1 x2 r f

/-- A LATER TILE: the same over the halo the previous point left in the scratch's first four rows. -/
theorem out_later (c : Dev nD) (i : grid0.Coords) (arg2 : Memref sig .tc .vmem S1x2x1000x96 .f32) (harg2 : arg2.IsWhole) (arg3 : Memref sig .tc .vmem S1x2x5x1000x96 .f32) (harg3 : arg3.IsWhole) (arg4 : Memref sig .tc .vmem S1x1000x1 .f32) (harg4 : arg4.IsWhole) (arg5 : Memref sig .tc .vmem S1x2x1000x96 .f32) (harg5 : arg5.IsWhole) (arg6 : Memref sig .tc .vmem S2x1004x96 .f32) (harg6 : arg6.IsWhole) (hc0 : ¬cond0_0 i)
    (x0 : Vec Ideal S1x2x1000x96 .f32) (x1 : Vec Ideal S1x2x5x1000x96 .f32) (x2 : Vec Ideal S1x1000x1 .f32) (xs0 : Vec Ideal S2x1004x96 .f32)
    (p : Fin 2) (r : Fin 1000) (f : Fin 96) :
    out0_B_3 (F := Ideal) c i arg2 harg2 arg3 harg3 arg4 harg4 arg5 harg5 arg6 harg6 hc0 x0 x1 x2 xs0 (ix4 (0 : Fin 1) p r f)
      = tileOut (scr (fun c s f => xs0 (ix3 c s f)) x0) x0 x1 x2 p r f := by
  match p with
  | ⟨0, _⟩ => exact out_later_re c i arg2 harg2 arg3 harg3 arg4 harg4 arg5 harg5 arg6 harg6 hc0 x0 x1 x2 xs0 r f
  | ⟨1, _⟩ => exact out_later_im c i arg2 harg2 arg3 harg3 arg4 harg4 arg5 harg5 arg6 harg6 hc0 x0 x1 x2 xs0 r f

/-- Row q of the four rows read at scratch row 1000 is scratch row 1000 + q. -/
theorem carry_idx (off : Fin 3 → ℕ) (inb : ∀ a, off a + S2x4x96.size a ≤ S2x1004x96.size a) (hoff : off = ![0, 1000, 0])
    (p : Fin 2) (q : Fin 4) (f : Fin 96) :
    (Rect.unit (s := S2x1004x96) off S2x4x96.size inb).toLoadRect.idx (ix3 p q f) = ix3 p (⟨1000 + q.val, by omega⟩ : Fin 1004) f := by
  subst hoff
  funext a
  apply Fin.ext
  match a with
  | ⟨0, _⟩ => show 0 + 1 * p.val = p.val; omega
  | ⟨1, _⟩ => show 1000 + 1 * q.val = 1000 + q.val; omega
  | ⟨2, _⟩ => show 0 + 1 * f.val = f.val; omega

theorem carried_first {F : FTy → Type} [FloatOps F] (c : Dev nD) (i : grid0.Coords) (arg2 : Memref sig .tc .vmem S1x2x1000x96 .f32) (harg2 : arg2.IsWhole) (arg3 : Memref sig .tc .vmem S1x2x5x1000x96 .f32) (harg3 : arg3.IsWhole) (arg4 : Memref sig .tc .vmem S1x1000x1 .f32) (harg4 : arg4.IsWhole) (arg5 : Memref sig .tc .vmem S1x2x1000x96 .f32) (harg5 : arg5.IsWhole) (arg6 : Memref sig .tc .vmem S2x1004x96 .f32) (harg6 : arg6.IsWhole) (hc0 : cond0_0 i)
    (x0 : Vec F S1x2x1000x96 .f32) (x1 : Vec F S1x2x5x1000x96 .f32) (x2 : Vec F S1x1000x1 .f32) (p : Fin 2) (q : Fin 4) (f : Fin 96) :
    sout0_A_0 c i arg2 harg2 arg3 harg3 arg4 harg4 arg5 harg5 arg6 harg6 hc0 x0 x1 x2 (ix3 p (⟨q.val, by omega⟩ : Fin 1004) f)
      = x0 (ix4 (0 : Fin 1) p (⟨996 + q.val, by omega⟩ : Fin 1000) f) := by
  unfold sout0_A_0
  rw [View.read_writes_eq_canon _ _ _ (scover0_A_0 c i arg2 harg2 arg3 harg3 arg4 harg4 arg5 harg5 arg6 harg6 hc0 x0 x1 x2)]
  unfold kernelRun0_A
  dsimp only
  sl_unfold_words
  refine (View.canon_cons_unit_hit _ _ _ _ (ix3 p q f) (fun a => by
    match a with
    | ⟨0, _⟩ => show p.val = 0 + p.val; omega
    | ⟨1, _⟩ => show q.val = 0 + q.val; omega
    | ⟨2, _⟩ => show f.val = 0 + f.val; omega)).trans ?_
  rw [pay1_eq]
  simp only [View.readCov_eq_canon', View.readAt_eq_ld, harg2.read_unread, View.ld_unit_zero (S := S1x2x1000x96) hz4]
  simp only [carry_idx ![0, 1000, 0] _ rfl p q f]
  rw [scratch_first _ _ x0, scr_of_le _ x0 p _ f (by show 4 ≤ 1000 + q.val; omega)]
  refine congrArg x0 (funext fun a => ?_)
  match a with
  | ⟨0, _⟩ => rfl
  | ⟨1, _⟩ => rfl
  | ⟨2, _⟩ => exact Fin.ext (by show 1000 + q.val - 4 = 996 + q.val; omega)
  | ⟨3, _⟩ => rfl

theorem carried_later {F : FTy → Type} [FloatOps F] (c : Dev nD) (i : grid0.Coords) (arg2 : Memref sig .tc .vmem S1x2x1000x96 .f32) (harg2 : arg2.IsWhole) (arg3 : Memref sig .tc .vmem S1x2x5x1000x96 .f32) (harg3 : arg3.IsWhole) (arg4 : Memref sig .tc .vmem S1x1000x1 .f32) (harg4 : arg4.IsWhole) (arg5 : Memref sig .tc .vmem S1x2x1000x96 .f32) (harg5 : arg5.IsWhole) (arg6 : Memref sig .tc .vmem S2x1004x96 .f32) (harg6 : arg6.IsWhole) (hc0 : ¬cond0_0 i)
    (x0 : Vec F S1x2x1000x96 .f32) (x1 : Vec F S1x2x5x1000x96 .f32) (x2 : Vec F S1x1000x1 .f32) (xs0 : Vec F S2x1004x96 .f32) (p : Fin 2) (q : Fin 4) (f : Fin 96) :
    sout0_B_0 c i arg2 harg2 arg3 harg3 arg4 harg4 arg5 harg5 arg6 harg6 hc0 x0 x1 x2 xs0 (ix3 p (⟨q.val, by omega⟩ : Fin 1004) f)
      = x0 (ix4 (0 : Fin 1) p (⟨996 + q.val, by omega⟩ : Fin 1000) f) := by
  unfold sout0_B_0
  rw [View.read_writes_eq_canon _ _ _ (scover0_B_0 c i arg2 harg2 arg3 harg3 arg4 harg4 arg5 harg5 arg6 harg6 hc0 x0 x1 x2 xs0)]
  unfold kernelRun0_B
  dsimp only
  sl_unfold_words
  refine (View.canon_cons_unit_hit _ _ _ _ (ix3 p q f) (fun a => by
    match a with
    | ⟨0, _⟩ => show p.val = 0 + p.val; omega
    | ⟨1, _⟩ => show q.val = 0 + q.val; omega
    | ⟨2, _⟩ => show f.val = 0 + f.val; omega)).trans ?_
  rw [pay1_eq]
  simp only [View.readCov_eq_canon', View.readAt_eq_ld, harg2.read_unread, View.ld_unit_zero (S := S1x2x1000x96) hz4]
  simp only [carry_idx ![0, 1000, 0] _ rfl p q f]
  rw [scratch_tile _ (fun _ _ _ => Scalar.ofBits .f32 0x00000000#32) x0 p _ f (by show 4 ≤ 1000 + q.val; omega), scr_of_le _ x0 p _ f (by show 4 ≤ 1000 + q.val; omega)]
  refine congrArg x0 (funext fun a => ?_)
  match a with
  | ⟨0, _⟩ => rfl
  | ⟨1, _⟩ => rfl
  | ⟨2, _⟩ => exact Fin.ext (by show 1000 + q.val - 4 = 996 + q.val; omega)
  | ⟨3, _⟩ => rfl

end Cert.KernelIdeal.Body

end
-- ==== Proof.Spec.lean ====
/-
  The mathematics both programs compute, as one function of the three argument arrays.

  The spectrum `x` has shape [16, 1, 2000, 481, 2] (batch, one channel, time, frequency bin, real/imaginary part), the
  filter coefficients `w` shape [16, 2000, 5, 96, 2] (batch, time, tap, bin, part) and the blend factor `a` shape
  [16, 2000, 1].  On the first 96 bins the result is an order-5 causal complex filter over time,
      y(b, t, f) = Σ_{k < 5} x̃(b, t + k, f) · w(b, t, k, f)        (a product of complex numbers),
  where x̃ is the signal delayed by four samples and zero before time 0 (`past`), blended with the signal itself:
      out = y · a + x · (1 − a).
  The remaining bins are copied.  `upd` is the blended value on the 96 filtered bins, the array both programs
  write over the first 96 bins of the spectrum.
-/
import Idealize.ShloMosaic.PureOps.Ideal
import Idealize.ShloMosaic.Lib.ValueIdx

noncomputable section

open scoped BigOperators

namespace Cert.Spec

open Idealize.ShloMosaic Idealize.ShloMosaic.ValueIdx

/-- The signal delayed by four samples: position `s` of the padded time axis (length 2004) holds sample `s - 4`, and zero
    at the four positions before time 0. -/
def past (x : (⟨5, ![16, 1, 2000, 481, 2]⟩ : Shape).Idx → EReal) (b : Fin 16) (s : Fin 2004) (f : Fin 96) (c : Fin 2) : EReal :=
  if h : 4 ≤ s.val then x (ix5 b (0 : Fin 1) (⟨s.val - 4, by omega⟩ : Fin 2000) (⟨f.val, by omega⟩ : Fin 481) c) else 0

/-- Tap `k`'s term of the filter at (b, t, f): part 0 is the real part `re·re − im·im` of the complex product of the delayed
    sample with the coefficient, part 1 its imaginary part `im·re + re·im`. -/
def tap (x : (⟨5, ![16, 1, 2000, 481, 2]⟩ : Shape).Idx → EReal) (w : (⟨5, ![16, 2000, 5, 96, 2]⟩ : Shape).Idx → EReal)
    (b : Fin 16) (t : Fin 2000) (f : Fin 96) (c : Fin 2) (k : Fin 5) : EReal :=
  if c.val = 0 then
    past x b ⟨t.val + k.val, by omega⟩ f 0 * w (ix5 b t k f (0 : Fin 2)) - past x b ⟨t.val + k.val, by omega⟩ f 1 * w (ix5 b t k f (1 : Fin 2))
  else
    past x b ⟨t.val + k.val, by omega⟩ f 1 * w (ix5 b t k f (0 : Fin 2)) + past x b ⟨t.val + k.val, by omega⟩ f 0 * w (ix5 b t k f (1 : Fin 2))

/-- The filter's output at (b, t, f), part `c`: the five taps summed from zero. -/
def fir (x : (⟨5, ![16, 1, 2000, 481, 2]⟩ : Shape).Idx → EReal) (w : (⟨5, ![16, 2000, 5, 96, 2]⟩ : Shape).Idx → EReal)
    (b : Fin 16) (t : Fin 2000) (f : Fin 96) (c : Fin 2) : EReal :=
  0 + ∑ k : Fin 5, tap x w b t f c k

/-- The blended value on the 96 filtered bins: `y · a + x · (1 − a)`, the `1` the f32 one. -/
def upd (x : (⟨5, ![16, 1, 2000, 481, 2]⟩ : Shape).Idx → EReal) (w : (⟨5, ![16, 2000, 5, 96, 2]⟩ : Shape).Idx → EReal)
    (a : (⟨3, ![16, 2000, 1]⟩ : Shape).Idx → EReal) : (⟨5, ![16, 1, 2000, 96, 2]⟩ : Shape).Idx → EReal := fun i =>
  fir x w (i 0) (i 2) (i 3) (i 4) * a (ix3 (i 0) (i 2) (0 : Fin 1))
    + x (ix5 (i 0) (0 : Fin 1) (i 2) (⟨(i 3).val, by have := (i 3).isLt; simp at this; omega⟩ : Fin 481) (i 4))
      * (Ideal.ofBits .f32 0x3F800000#32 - a (ix3 (i 0) (i 2) (0 : Fin 1)))

end Cert.Spec

end
-- ==== Proof.Bridge.lean ====
/-
  One tile's output is the specification on the tile's rows.

  Fix a batch b and a tile j (rows 1000·j … 1000·j + 999 of the time axis). If the scratch signal the tile's body sees is
  the zero-padded delayed signal of the specification on those rows (scratch row s holds delayed position 1000·j + s),
  and the tile's blocks are the matching pieces of the three arguments, then what the body leaves at (c, r, f) is the
  specification's blended value at time 1000·j + r: the body adds the ten products of each accumulator one after the
  other from zero where the specification sums five complex products from zero, and on the extended reals addition is
  commutative and associative and a − b is a + (−b), so the two orders agree; no entry needs to be finite.
-/
import proofs.«177004_j30185030156318_2_alg».proof.Proof.Spec
import proofs.«177004_j30185030156318_2_alg».proof.Proof.Tile
import Idealize.ShloMosaic.PureOps.Ideal.Laws

noncomputable section

open scoped BigOperators

namespace Cert.KernelIdeal.Body

open Idealize.ShloMosaic Idealize.ShloMosaic.ValueIdx Cert.KernelIdeal

/-- Ten products added and subtracted in turn from zero are the sum from zero of the five differences. -/
theorem chain_re (p0 p1 w0 w1 : Fin 5 → EReal) :
    (((((((((((0 : EReal) + p0 0 * w0 0) - p1 0 * w1 0) + p0 1 * w0 1) - p1 1 * w1 1) + p0 2 * w0 2) - p1 2 * w1 2) + p0 3 * w0 3) - p1 3 * w1 3) + p0 4 * w0 4) - p1 4 * w1 4)
      = 0 + ∑ k : Fin 5, (p0 k * w0 k - p1 k * w1 k) := by
  rw [Fin.sum_univ_five]
  simp only [sub_eq_add_neg]
  ac_rfl

/-- Ten products added in turn from zero are the sum from zero of the five pair sums. -/
theorem chain_im (p0 p1 w0 w1 : Fin 5 → EReal) :
    (((((((((((0 : EReal) + p1 0 * w0 0) + p0 0 * w1 0) + p1 1 * w0 1) + p0 1 * w1 1) + p1 2 * w0 2) + p0 2 * w1 2) + p1 3 * w0 3) + p0 3 * w1 3) + p1 4 * w0 4) + p0 4 * w1 4)
      = 0 + ∑ k : Fin 5, (p1 k * w0 k + p0 k * w1 k) := by
  rw [Fin.sum_univ_five]
  ac_rfl

variable (X : (⟨5, ![16, 1, 2000, 481, 2]⟩ : Shape).Idx → EReal) (W : (⟨5, ![16, 2000, 5, 96, 2]⟩ : Shape).Idx → EReal)
  (A : (⟨3, ![16, 2000, 1]⟩ : Shape).Idx → EReal) (b : Fin 16) (j : ℕ) (hj : j < 2)
  (Y : Fin 2 → Fin 1004 → Fin 96 → EReal) (x0 : Vec Ideal S1x2x1000x96 .f32) (x1 : Vec Ideal S1x2x5x1000x96 .f32) (x2 : Vec Ideal S1x1000x1 .f32)
  (hY : ∀ (c : Fin 2) (k : ℕ) (hk : k < 5) (r : Fin 1000) (f : Fin 96),
    Y c (⟨k + r.val, by omega⟩ : Fin 1004) f = Cert.Spec.past X b (⟨(1000 * j + r.val) + k, by omega⟩ : Fin 2004) f c)
  (hx0 : ∀ (c : Fin 2) (r : Fin 1000) (f : Fin 96),
    x0 (ix4 (0 : Fin 1) c r f) = X (ix5 b (0 : Fin 1) (⟨1000 * j + r.val, by omega⟩ : Fin 2000) (⟨f.val, by omega⟩ : Fin 481) c))
  (hx1 : ∀ (c : Fin 2) (k : Fin 5) (r : Fin 1000) (f : Fin 96),
    x1 (ix5 (0 : Fin 1) c k r f) = W (ix5 b (⟨1000 * j + r.val, by omega⟩ : Fin 2000) k f c))
  (hx2 : ∀ r : Fin 1000, x2 (ix3 (0 : Fin 1) r (0 : Fin 1)) = A (ix3 b (⟨1000 * j + r.val, by omega⟩ : Fin 2000) (0 : Fin 1)))

include hY hx1 in
/-- The real part's accumulator is the specification's filter output, part 0. -/
theorem accRe_eq (r : Fin 1000) (f : Fin 96) :
    accRe Y x1 r f = Cert.Spec.fir X W b (⟨1000 * j + r.val, by omega⟩ : Fin 2000) f (0 : Fin 2) := by
  unfold accRe
  rw [hY (⟨0, by omega⟩ : Fin 2) 0 (by omega) r f,
    hY (⟨1, by omega⟩ : Fin 2) 0 (by omega) r f,
    hY (⟨0, by omega⟩ : Fin 2) 1 (by omega) r f,
    hY (⟨1, by omega⟩ : Fin 2) 1 (by omega) r f,
    hY (⟨0, by omega⟩ : Fin 2) 2 (by omega) r f,
    hY (⟨1, by omega⟩ : Fin 2) 2 (by omega) r f,
    hY (⟨0, by omega⟩ : Fin 2) 3 (by omega) r f,
    hY (⟨1, by omega⟩ : Fin 2) 3 (by omega) r f,
    hY (⟨0, by omega⟩ : Fin 2) 4 (by omega) r f,
    hY (⟨1, by omega⟩ : Fin 2) 4 (by omega) r f,
    hx1 (⟨0, by omega⟩ : Fin 2) (⟨0, by omega⟩ : Fin 5) r f,
    hx1 (⟨1, by omega⟩ : Fin 2) (⟨0, by omega⟩ : Fin 5) r f,
    hx1 (⟨0, by omega⟩ : Fin 2) (⟨1, by omega⟩ : Fin 5) r f,
    hx1 (⟨1, by omega⟩ : Fin 2) (⟨1, by omega⟩ : Fin 5) r f,
    hx1 (⟨0, by omega⟩ : Fin 2) (⟨2, by omega⟩ : Fin 5) r f,
    hx1 (⟨1, by omega⟩ : Fin 2) (⟨2, by omega⟩ : Fin 5) r f,
    hx1 (⟨0, by omega⟩ : Fin 2) (⟨3, by omega⟩ : Fin 5) r f,
    hx1 (⟨1, by omega⟩ : Fin 2) (⟨3, by omega⟩ : Fin 5) r f,
    hx1 (⟨0, by omega⟩ : Fin 2) (⟨4, by omega⟩ : Fin 5) r f,
    hx1 (⟨1, by omega⟩ : Fin 2) (⟨4, by omega⟩ : Fin 5) r f,
    Ideal.ofBits_zero_f32]
  exact chain_re (fun k => Cert.Spec.past X b ⟨(1000 * j + r.val) + k.val, by omega⟩ f 0)
    (fun k => Cert.Spec.past X b ⟨(1000 * j + r.val) + k.val, by omega⟩ f 1)
    (fun k => W (ix5 b (⟨1000 * j + r.val, by omega⟩ : Fin 2000) k f (0 : Fin 2)))
    (fun k => W (ix5 b (⟨1000 * j + r.val, by omega⟩ : Fin 2000) k f (1 : Fin 2)))

include hY hx1 in
/-- The imaginary part's accumulator is the specification's filter output, part 1. -/
theorem accIm_eq (r : Fin 1000) (f : Fin 96) :
    accIm Y x1 r f = Cert.Spec.fir X W b (⟨1000 * j + r.val, by omega⟩ : Fin 2000) f (1 : Fin 2) := by
  unfold accIm
  rw [hY (⟨0, by omega⟩ : Fin 2) 0 (by omega) r f,
    hY (⟨1, by omega⟩ : Fin 2) 0 (by omega) r f,
    hY (⟨0, by omega⟩ : Fin 2) 1 (by omega) r f,
    hY (⟨1, by omega⟩ : Fin 2) 1 (by omega) r f,
    hY (⟨0, by omega⟩ : Fin 2) 2 (by omega) r f,
    hY (⟨1, by omega⟩ : Fin 2) 2 (by omega) r f,
    hY (⟨0, by omega⟩ : Fin 2) 3 (by omega) r f,
    hY (⟨1, by omega⟩ : Fin 2) 3 (by omega) r f,
    hY (⟨0, by omega⟩ : Fin 2) 4 (by omega) r f,
    hY (⟨1, by omega⟩ : Fin 2) 4 (by omega) r f,
    hx1 (⟨0, by omega⟩ : Fin 2) (⟨0, by omega⟩ : Fin 5) r f,
    hx1 (⟨1, by omega⟩ : Fin 2) (⟨0, by omega⟩ : Fin 5) r f,
    hx1 (⟨0, by omega⟩ : Fin 2) (⟨1, by omega⟩ : Fin 5) r f,
    hx1 (⟨1, by omega⟩ : Fin 2) (⟨1, by omega⟩ : Fin 5) r f,
    hx1 (⟨0, by omega⟩ : Fin 2) (⟨2, by omega⟩ : Fin 5) r f,
    hx1 (⟨1, by omega⟩ : Fin 2) (⟨2, by omega⟩ : Fin 5) r f,
    hx1 (⟨0, by omega⟩ : Fin 2) (⟨3, by omega⟩ : Fin 5) r f,
    hx1 (⟨1, by omega⟩ : Fin 2) (⟨3, by omega⟩ : Fin 5) r f,
    hx1 (⟨0, by omega⟩ : Fin 2) (⟨4, by omega⟩ : Fin 5) r f,
    hx1 (⟨1, by omega⟩ : Fin 2) (⟨4, by omega⟩ : Fin 5) r f,
    Ideal.ofBits_zero_f32]
  exact chain_im (fun k => Cert.Spec.past X b ⟨(1000 * j + r.val) + k.val, by omega⟩ f 0)
    (fun k => Cert.Spec.past X b ⟨(1000 * j + r.val) + k.val, by omega⟩ f 1)
    (fun k => W (ix5 b (⟨1000 * j + r.val, by omega⟩ : Fin 2000) k f (0 : Fin 2)))
    (fun k => W (ix5 b (⟨1000 * j + r.val, by omega⟩ : Fin 2000) k f (1 : Fin 2)))

include hY hx0 hx1 hx2 in
/-- THE TILE'S OUTPUT IS THE SPECIFICATION on the tile's rows. -/
theorem tileOut_eq_upd (c : Fin 2) (r : Fin 1000) (f : Fin 96) :
    tileOut Y x0 x1 x2 c r f = Cert.Spec.upd X W A (ix5 b (0 : Fin 1) (⟨1000 * j + r.val, by omega⟩ : Fin 2000) f c) := by
  unfold tileOut
  rw [hx2 r, hx0 c r f]
  by_cases h : c.val = 0
  · obtain rfl : c = 0 := Fin.ext h
    rw [if_pos h, accRe_eq X W b j hj Y x1 hY hx1 r f]
    rfl
  · obtain rfl : c = 1 := Fin.ext (by have := c.isLt; omega)
    rw [if_neg h, accIm_eq X W b j hj Y x1 hY hx1 r f]
    rfl

end Cert.KernelIdeal.Body

end
-- ==== Proof.HostSide.lean ====
/-
  The host operations around the kernel, read at an index.

  Before the kernel the program takes the first 96 bins of the spectrum, drops the unit channel axis and moves the
  real/imaginary axis in front of time (array 2), and reorders the coefficients to (batch, part, tap, time, bin)
  (array 3).  After it the kernel's output, laid out (batch, part, time, bin), is moved back to (batch, time, bin, part),
  given the unit channel axis again and written over the first 96 bins of the spectrum.  The kernel's windows cut
  each array into blocks of 1000 time steps: grid point t works on batch t / 2 and on the half t % 2 of the time axis.
-/
import proofs.«177004_j30185030156318_2_alg».proof.Proof.Gen.KernelIdeal.Frame
import proofs.«177004_j30185030156318_2_alg».proof.Proof.Spec
import Idealize.ShloMosaic.Lib.ValueIdx
import Idealize.ShloMosaic.Lib.Pipeline.Value
import Idealize.ShloMosaic.Lib.StableHlo.Run

noncomputable section

open scoped BigOperators

namespace Cert.KernelIdeal.Host

open Cert.KernelIdeal Cert.KernelIdeal.Gen Idealize.ShloMosaic Idealize.ShloMosaic.ValueIdx
open Idealize.ShloMosaic.TcCoe Idealize.SL.Sem Idealize.ShloMosaic.StableHlo

variable (m : (ℓ : Loc nD τ sig) → Buf (Elt Ideal) ℓ) (c : Dev nD)

/-- The spectrum as launched. -/
abbrev X : S16x1x2000x481x2.Idx → EReal := m ((c : Thread nD τ).loc main_arg0)
/-- The coefficients as launched. -/
abbrev Wc : S16x2000x5x96x2.Idx → EReal := m ((c : Thread nD τ).loc main_arg1)
/-- The blend factor as launched. -/
abbrev A : S16x2000x1.Idx → EReal := m ((c : Thread nD τ).loc main_arg2)

/-! ## The arrays the host operations hand the kernel -/

/-- Array 2 as the operations' term of the spectrum. -/
theorem v2_term : (V m c main_v2 : S16x2x2000x96.Idx → EReal)
    = transpose S16x2x2000x96 [0, 3, 1, 2]
        (shapeCast S16x2000x96x2
          (extractStridedSlice S16x1x2000x96x2 ![0, 0, 0, 0, 0] (X m c) slices_S16x1x2000x481x2_S16x1x2000x96x2_0_0_0_0_0)
          shapeCasts_S16x1x2000x96x2_S16x2000x96x2)
        transposes_S16x2000x96x2_S16x2x2000x96_0_3_1_2 := by
  show StableHlo.after hostOps0 (fun b => m (c, b)) (Proc.devRef .tc main_v2) = _
  after_results
  rfl

/-- Array 2 at (batch, part, time, bin) is the spectrum at (batch, 0, time, bin, part). -/
theorem v2_at (b : Fin 16) (p : Fin 2) (t : Fin 2000) (f : Fin 96) :
    V m c main_v2 (ix4 b p t f) = X m c (ix5 b (0 : Fin 1) t (⟨f.val, by omega⟩ : Fin 481) p) := by
  refine (congrFun (v2_term m c) (ix4 b p t f)).trans ?_
  refine (transpose_apply (s := S16x2000x96x2) (t := S16x2x2000x96) [0, 3, 1, 2] _ transposes_S16x2000x96x2_S16x2x2000x96_0_3_1_2
    (ix4 b p t f) (ix4 b t f p) (fun a => by
      match a with | ⟨0, _⟩ => rfl | ⟨1, _⟩ => rfl | ⟨2, _⟩ => rfl | ⟨3, _⟩ => rfl)).trans ?_
  refine (shapeCast_apply (s := S16x1x2000x96x2) (t := S16x2000x96x2) _ shapeCasts_S16x1x2000x96x2_S16x2000x96x2
    (ix4 b t f p) (ix5 b (0 : Fin 1) t f p) (by
      rewrite [Shape.rowMajor_val_five, Shape.rowMajor_val_four]
      show (((b.val * 1 + 0) * 2000 + t.val) * 96 + f.val) * 2 + p.val = ((b.val * 2000 + t.val) * 96 + f.val) * 2 + p.val
      omega)).trans ?_
  exact extractStridedSlice_apply (s := S16x1x2000x481x2) (t := S16x1x2000x96x2) ![0, 0, 0, 0, 0] (X m c)
    slices_S16x1x2000x481x2_S16x1x2000x96x2_0_0_0_0_0 (ix5 b (0 : Fin 1) t f p)
    (ix5 b (0 : Fin 1) t (⟨f.val, by omega⟩ : Fin 481) p) (fun a => by
      match a with
      | ⟨0, _⟩ => show b.val = 0 + b.val; omega
      | ⟨1, _⟩ => show 0 = 0 + 0; omega
      | ⟨2, _⟩ => show t.val = 0 + t.val; omega
      | ⟨3, _⟩ => show f.val = 0 + f.val; omega
      | ⟨4, _⟩ => show p.val = 0 + p.val; omega)

/-- Array 3 as the operations' term of the coefficients. -/
theorem v3_term : (V m c main_v3 : S16x2x5x2000x96.Idx → EReal)
    = transpose S16x2x5x2000x96 [0, 4, 2, 1, 3] (Wc m c) transposes_S16x2000x5x96x2_S16x2x5x2000x96_0_4_2_1_3 := by
  show StableHlo.after hostOps0 (fun b => m (c, b)) (Proc.devRef .tc main_v3) = _
  after_results

/-- Array 3 at (batch, part, tap, time, bin) is the coefficient at (batch, time, tap, bin, part). -/
theorem v3_at (b : Fin 16) (p : Fin 2) (k : Fin 5) (t : Fin 2000) (f : Fin 96) :
    V m c main_v3 (ix5 b p k t f) = Wc m c (ix5 b t k f p) := by
  refine (congrFun (v3_term m c) (ix5 b p k t f)).trans ?_
  exact transpose_apply (s := S16x2000x5x96x2) (t := S16x2x5x2000x96) [0, 4, 2, 1, 3] (Wc m c)
    transposes_S16x2000x5x96x2_S16x2x5x2000x96_0_4_2_1_3 (ix5 b p k t f) (ix5 b t k f p) (fun a => by
      match a with | ⟨0, _⟩ => rfl | ⟨1, _⟩ => rfl | ⟨2, _⟩ => rfl | ⟨3, _⟩ => rfl | ⟨4, _⟩ => rfl)

/-! ## The windows' blocks -/

/-- The grid has 32 points. -/
theorem lt32 (t : Fin cfg0.N) : t.val < 32 := Nat.lt_of_lt_of_eq t.isLt N_0

/-- The printed index maps, decided over the grid: point t works on batch t / 2 and on half t % 2 of the time axis. -/
theorem idx_facts : ∀ t : Fin cfg0.N, win0_0.index t = ![t.val / 2, 0, t.val % 2, 0]
    ∧ win0_1.index t = ![t.val / 2, 0, 0, t.val % 2, 0]
    ∧ win0_2.index t = ![t.val / 2, t.val % 2, 0]
    ∧ win0_3.index t = ![t.val / 2, 0, t.val % 2, 0] :=
  (by decide +kernel : ∀ t : Fin grid0.N, _)

/-- Window 0's block at point t: both parts of 1000 time steps of one batch, read off the spectrum. -/
theorem iblk0_at (t : Fin cfg0.N) (p : Fin 2) (r : Fin 1000) (f : Fin 96) :
    iblk m c 0 t (ix4 (0 : Fin 1) p r f)
      = X m c (ix5 (⟨t.val / 2, by have := lt32 t; omega⟩ : Fin 16) (0 : Fin 1)
          (⟨1000 * (t.val % 2) + r.val, by omega⟩ : Fin 2000) (⟨f.val, by omega⟩ : Fin 481) p) := by
  obtain ⟨e0, -, -, -⟩ := idx_facts t
  have q0 : win0_0.index t (0 : Fin 4) = t.val / 2 := congrFun e0 0
  have q1 : win0_0.index t (1 : Fin 4) = 0 := congrFun e0 1
  have q2 : win0_0.index t (2 : Fin 4) = t.val % 2 := congrFun e0 2
  have q3 : win0_0.index t (3 : Fin 4) = 0 := congrFun e0 3
  show V m c main_v2 (((cfg0.win 0).blk t).view.emb (ix4 (0 : Fin 1) p r f)) = _
  rw [show ((cfg0.win 0).blk t).view.emb (ix4 (0 : Fin 1) p r f)
        = ix4 (⟨t.val / 2, by have := lt32 t; omega⟩ : Fin 16) p (⟨1000 * (t.val % 2) + r.val, by omega⟩ : Fin 2000) f from
      funext fun a => Fin.ext (by
        match a with
        | ⟨0, _⟩ => show win0_0.index t (0 : Fin 4) * 1 + 1 * 0 = t.val / 2; omega
        | ⟨1, _⟩ => show win0_0.index t (1 : Fin 4) * 2 + 1 * p.val = p.val; omega
        | ⟨2, _⟩ => show win0_0.index t (2 : Fin 4) * 1000 + 1 * r.val = 1000 * (t.val % 2) + r.val; omega
        | ⟨3, _⟩ => show win0_0.index t (3 : Fin 4) * 96 + 1 * f.val = f.val; omega)]
  exact v2_at m c _ p _ f

/-- Window 1's block at point t: the coefficients of the same 1000 time steps. -/
theorem iblk1_at (t : Fin cfg0.N) (p : Fin 2) (k : Fin 5) (r : Fin 1000) (f : Fin 96) :
    iblk m c 1 t (ix5 (0 : Fin 1) p k r f)
      = Wc m c (ix5 (⟨t.val / 2, by have := lt32 t; omega⟩ : Fin 16)
          (⟨1000 * (t.val % 2) + r.val, by omega⟩ : Fin 2000) k f p) := by
  obtain ⟨-, e1, -, -⟩ := idx_facts t
  have q0 : win0_1.index t (0 : Fin 5) = t.val / 2 := congrFun e1 0
  have q1 : win0_1.index t (1 : Fin 5) = 0 := congrFun e1 1
  have q2 : win0_1.index t (2 : Fin 5) = 0 := congrFun e1 2
  have q3 : win0_1.index t (3 : Fin 5) = t.val % 2 := congrFun e1 3
  have q4 : win0_1.index t (4 : Fin 5) = 0 := congrFun e1 4
  show V m c main_v3 (((cfg0.win 1).blk t).view.emb (ix5 (0 : Fin 1) p k r f)) = _
  rw [show ((cfg0.win 1).blk t).view.emb (ix5 (0 : Fin 1) p k r f)
        = ix5 (⟨t.val / 2, by have := lt32 t; omega⟩ : Fin 16) p k (⟨1000 * (t.val % 2) + r.val, by omega⟩ : Fin 2000) f from
      funext fun a => Fin.ext (by
        match a with
        | ⟨0, _⟩ => show win0_1.index t (0 : Fin 5) * 1 + 1 * 0 = t.val / 2; omega
        | ⟨1, _⟩ => show win0_1.index t (1 : Fin 5) * 2 + 1 * p.val = p.val; omega
        | ⟨2, _⟩ => show win0_1.index t (2 : Fin 5) * 5 + 1 * k.val = k.val; omega
        | ⟨3, _⟩ => show win0_1.index t (3 : Fin 5) * 1000 + 1 * r.val = 1000 * (t.val % 2) + r.val; omega
        | ⟨4, _⟩ => show win0_1.index t (4 : Fin 5) * 96 + 1 * f.val = f.val; omega)]
  exact v3_at m c _ p k _ f

/-- Window 2's block at point t: the blend factor of the same 1000 time steps. -/
theorem iblk2_at (t : Fin cfg0.N) (r : Fin 1000) :
    iblk m c 2 t (ix3 (0 : Fin 1) r (0 : Fin 1))
      = A m c (ix3 (⟨t.val / 2, by have := lt32 t; omega⟩ : Fin 16)
          (⟨1000 * (t.val % 2) + r.val, by omega⟩ : Fin 2000) (0 : Fin 1)) := by
  obtain ⟨-, -, e2, -⟩ := idx_facts t
  have q0 : win0_2.index t (0 : Fin 3) = t.val / 2 := congrFun e2 0
  have q1 : win0_2.index t (1 : Fin 3) = t.val % 2 := congrFun e2 1
  have q2 : win0_2.index t (2 : Fin 3) = 0 := congrFun e2 2
  show V m c main_arg2 (((cfg0.win 2).blk t).view.emb (ix3 (0 : Fin 1) r (0 : Fin 1))) = _
  rw [V_main_arg2,
    show ((cfg0.win 2).blk t).view.emb (ix3 (0 : Fin 1) r (0 : Fin 1))
        = ix3 (⟨t.val / 2, by have := lt32 t; omega⟩ : Fin 16) (⟨1000 * (t.val % 2) + r.val, by omega⟩ : Fin 2000) (0 : Fin 1) from
      funext fun a => Fin.ext (by
        match a with
        | ⟨0, _⟩ => show win0_2.index t (0 : Fin 3) * 1 + 1 * 0 = t.val / 2; omega
        | ⟨1, _⟩ => show win0_2.index t (1 : Fin 3) * 1000 + 1 * r.val = 1000 * (t.val % 2) + r.val; omega
        | ⟨2, _⟩ => show win0_2.index t (2 : Fin 3) * 1 + 1 * 0 = 0; omega)]

/-! ## The lines after the kernel -/

/-- The kernel's output array, laid out (batch, part, time, bin), when it holds the blended value. -/
def G : S16x2x2000x96.Idx → EReal := fun i =>
  Cert.Spec.upd (X m c) (Wc m c) (A m c) (ix5 (i 0 : Fin 16) (0 : Fin 1) (i 2 : Fin 2000) (i 3 : Fin 96) (i 1 : Fin 2))

/-- Moved back to (batch, time, bin, part) and given the unit channel axis, that array is the specification's update. -/
theorem upd_of_G :
    broadcastInDim S16x1x2000x96x2 ![0, 2, 3, 4] bcast_S16x2000x96x2_S16x1x2000x96x2_0_2_3_4
        (transpose S16x2000x96x2 [0, 2, 3, 1] (G m c) transposes_S16x2x2000x96_S16x2000x96x2_0_2_3_1)
      = Cert.Spec.upd (X m c) (Wc m c) (A m c) := by
  funext i
  obtain ⟨b, z, t, f, p, rfl⟩ : ∃ (b : Fin 16) (z : Fin 1) (t : Fin 2000) (f : Fin 96) (p : Fin 2), i = ix5 b z t f p :=
    ⟨i 0, i 1, i 2, i 3, i 4, eq_ix5 i⟩
  obtain rfl : z = 0 := Subsingleton.elim _ _
  refine (broadcastInDim_apply (s := S16x2000x96x2) (t := S16x1x2000x96x2) ![0, 2, 3, 4]
    bcast_S16x2000x96x2_S16x1x2000x96x2_0_2_3_4 _ (ix5 b (0 : Fin 1) t f p) (ix4 b t f p) (fun a => by
      match a with
      | ⟨0, _⟩ => show b.val = if (16 : Nat) = 1 then 0 else b.val; rw [if_neg (by decide)]
      | ⟨1, _⟩ => show t.val = if (2000 : Nat) = 1 then 0 else t.val; rw [if_neg (by decide)]
      | ⟨2, _⟩ => show f.val = if (96 : Nat) = 1 then 0 else f.val; rw [if_neg (by decide)]
      | ⟨3, _⟩ => show p.val = if (2 : Nat) = 1 then 0 else p.val; rw [if_neg (by decide)])).trans ?_
  refine (transpose_apply (s := S16x2x2000x96) (t := S16x2000x96x2) [0, 2, 3, 1] (G m c)
    transposes_S16x2x2000x96_S16x2000x96x2_0_2_3_1 (ix4 b t f p) (ix4 b p t f) (fun a => by
      match a with | ⟨0, _⟩ => rfl | ⟨1, _⟩ => rfl | ⟨2, _⟩ => rfl | ⟨3, _⟩ => rfl)).trans ?_
  rfl

/-- The program's result once the kernel's output array holds the blended value: the update written over the first
    96 bins of the spectrum. -/
theorem tail (hfin : (dats m 0 c).arrAt 3 cfg0.N = G m c) :
    Pipeline.afterTail₀ cfgs (dats m) 0 (V0 m) [hostOps1] c main_v8
      = Host.scatter scatter_S16x1x2000x481x2_S1_S16x1x2000x96x2_01234_n_3_0 (fun _ b => b) (X m c)
          (broadcastInDim S1 ![] bcast_S_S1 (constantI S_ 32 0#32)) (Cert.Spec.upd (X m c) (Wc m c) (A m c)) := by
  unfold Pipeline.afterTail₀
  show StableHlo.after hostOps1 _ (Proc.devRef .tc main_v8) = _
  after_results
  have e0 : Pipeline.withArrays (cfgs 0).spec c (V0 m c) (fun w => (dats m 0 c).arrAt w (cfgs 0).N)
      (Proc.devRef .tc main_arg0) = X m c :=
    (Pipeline.withArrays_of_ne _ c (V0 m c) _ main_arg0
      (by exact (by decide : ∀ w, Pipeline.arrRef spec0 w ≠ main_arg0))).trans (V_main_arg0 m c)
  have e4 : Pipeline.withArrays (cfgs 0).spec c (V0 m c) (fun w => (dats m 0 c).arrAt w (cfgs 0).N)
      (Proc.devRef .tc main_v4) = G m c :=
    (Pipeline.withArrays_arr spec0 launch0.win.arr_inj c _ _ 3).trans hfin
  rw [e0, e4, upd_of_G]

end Cert.KernelIdeal.Host

end
-- ==== Proof.Points.lean ====
/-
  What the output block and the carried halo hold after each grid point.

  Grid point t is tile j = t mod 2 of batch b = t div 2. The halo a point leaves (scratch rows 0–3) is the tile's last
  four samples, whatever the case, so no induction over the points is needed: the point before an odd point is the
  first tile of the same batch, and its halo is the batch's samples 996–999. With the tile's three blocks read as pieces
  of the argument arrays, the scratch signal a point's body sees is the specification's zero-padded delayed signal on
  the tile's rows, and the block the point writes back is the specification's blended value on those rows.
-/
import proofs.«177004_j30185030156318_2_alg».proof.Proof.Pieces
import proofs.«177004_j30185030156318_2_alg».proof.Proof.Bridge
import proofs.«177004_j30185030156318_2_alg».proof.Proof.HostSide

set_option maxRecDepth 16384
set_option maxHeartbeats 400000

noncomputable section

namespace Cert.KernelIdeal.Pt

open Idealize.ShloMosaic Idealize.ShloMosaic.TcCoe Idealize.ShloMosaic.ValueIdx Cert.KernelIdeal Cert.KernelIdeal.Gen Cert.KernelIdeal.Body Cert.KernelIdeal.Host

/-! ## The scratch signal is the specification's delayed signal -/

section Past

variable (X : (⟨5, ![16, 1, 2000, 481, 2]⟩ : Shape).Idx → EReal) (b : Fin 16) (j : ℕ) (hj : j < 2)
  (x0 : Vec Ideal S1x2x1000x96 .f32)
  (hx0 : ∀ (p : Fin 2) (r : Fin 1000) (f : Fin 96),
    x0 (ix4 (0 : Fin 1) p r f) = X (ix5 b (0 : Fin 1) (⟨1000 * j + r.val, by omega⟩ : Fin 2000) (⟨f.val, by omega⟩ : Fin 481) p))

include hx0 in
/-- At the first tile of a batch: the tile over a zero halo is the delayed signal on rows 0 … 1003. -/
theorem scr_past_first (hj0 : j = 0) (p : Fin 2) (k : ℕ) (hk : k < 5) (r : Fin 1000) (f : Fin 96) :
    scr (F := Ideal) (fun _ _ _ => Scalar.ofBits (F := Ideal) .f32 0x00000000#32) x0 p (⟨k + r.val, by omega⟩ : Fin 1004) f
      = Cert.Spec.past X b (⟨(1000 * j + r.val) + k, by omega⟩ : Fin 2004) f p := by
  unfold scr Cert.Spec.past
  by_cases h4 : 4 ≤ k + r.val
  · rw [dif_pos (show 4 ≤ (⟨k + r.val, by omega⟩ : Fin 1004).val from h4),
      dif_pos (show 4 ≤ (⟨(1000 * j + r.val) + k, by omega⟩ : Fin 2004).val from (by show 4 ≤ (1000 * j + r.val) + k; omega)), hx0]
    refine congrArg X (funext fun a => ?_)
    match a with
    | ⟨0, _⟩ => rfl
    | ⟨1, _⟩ => rfl
    | ⟨2, _⟩ => exact Fin.ext (by show 1000 * j + (k + r.val - 4) = (1000 * j + r.val) + k - 4; omega)
    | ⟨3, _⟩ => rfl
    | ⟨4, _⟩ => rfl
  · rw [dif_neg (show ¬4 ≤ (⟨k + r.val, by omega⟩ : Fin 1004).val from h4),
      dif_neg (show ¬4 ≤ (⟨(1000 * j + r.val) + k, by omega⟩ : Fin 2004).val from (by show ¬4 ≤ (1000 * j + r.val) + k; omega))]
    exact Ideal.ofBits_zero_f32

include hx0 in
/-- At the second tile: the tile over the batch's samples 996 … 999 is the delayed signal on rows 1000 … 2003. -/
theorem scr_past_later (hj1 : j = 1) (xs0 : Vec Ideal S2x1004x96 .f32)
    (hxs : ∀ (p : Fin 2) (q : Fin 4) (f : Fin 96), xs0 (ix3 p (⟨q.val, by omega⟩ : Fin 1004) f)
      = X (ix5 b (0 : Fin 1) (⟨996 + q.val, by omega⟩ : Fin 2000) (⟨f.val, by omega⟩ : Fin 481) p))
    (p : Fin 2) (k : ℕ) (hk : k < 5) (r : Fin 1000) (f : Fin 96) :
    scr (F := Ideal) (fun c s f => xs0 (ix3 c s f)) x0 p (⟨k + r.val, by omega⟩ : Fin 1004) f
      = Cert.Spec.past X b (⟨(1000 * j + r.val) + k, by omega⟩ : Fin 2004) f p := by
  unfold scr Cert.Spec.past
  rw [dif_pos (show 4 ≤ (⟨(1000 * j + r.val) + k, by omega⟩ : Fin 2004).val from (by show 4 ≤ (1000 * j + r.val) + k; omega))]
  by_cases h4 : 4 ≤ k + r.val
  · rw [dif_pos (show 4 ≤ (⟨k + r.val, by omega⟩ : Fin 1004).val from h4), hx0]
    refine congrArg X (funext fun a => ?_)
    match a with
    | ⟨0, _⟩ => rfl
    | ⟨1, _⟩ => rfl
    | ⟨2, _⟩ => exact Fin.ext (by show 1000 * j + (k + r.val - 4) = (1000 * j + r.val) + k - 4; omega)
    | ⟨3, _⟩ => rfl
    | ⟨4, _⟩ => rfl
  · rw [dif_neg (show ¬4 ≤ (⟨k + r.val, by omega⟩ : Fin 1004).val from h4)]
    refine (hxs p (⟨k + r.val, by omega⟩ : Fin 4) f).trans ?_
    refine congrArg X (funext fun a => ?_)
    match a with
    | ⟨0, _⟩ => rfl
    | ⟨1, _⟩ => rfl
    | ⟨2, _⟩ => exact Fin.ext (by show 996 + (k + r.val) = (1000 * j + r.val) + k - 4; omega)
    | ⟨3, _⟩ => rfl
    | ⟨4, _⟩ => rfl

end Past

/-! ## After each point -/

variable (m : (ℓ : Loc nD τ sig) → Buf (Elt Ideal) ℓ) (c : Dev nD)

theorem pt_lt32 (t : Fin cfg0.N) : t.val < 32 := lt_of_lt_of_eq t.isLt (show cfg0.N = 32 from N_0)

/-- THE HALO A POINT LEAVES: scratch rows 0–3 hold the tile's samples 996–999. -/
theorem halo_rows (t : Fin cfg0.N) (p : Fin 2) (q : Fin 4) (f : Fin 96) :
    (outsAt0 m c t.val t.isLt).2 (ix3 p (⟨q.val, by omega⟩ : Fin 1004) f)
      = iblk m c 0 t (ix4 (0 : Fin 1) p (⟨996 + q.val, by omega⟩ : Fin 1000) f) := by
  by_cases h0 : t.val % 2 = 0
  · rw [outsAt0_A m c t h0]
    exact carried_first c (grid0.coords t) (ms0_0 t) (hs0_0 t) (ms0_1 t) (hs0_1 t) (ms0_2 t) (hs0_2 t) (ms0_3 t) (hs0_3 t) scM0_0 (Memref.isWhole_whole _) ((hcond0_0 t).mpr h0) (iblk m c 0 t) (iblk m c 1 t) (iblk m c 2 t) p q f
  · rw [outsAt0_B m c t h0]
    exact carried_later c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (iblk m c 0 t) (iblk m c 1 t) (iblk m c 2 t)
      (outsAt0 m c (t.val - 1) (Nat.lt_of_le_of_lt (Nat.sub_le _ _) t.isLt)).2 p q f

/-- After the first tile of a batch: the tile's output over a zero halo. -/
theorem first_at (t : Fin cfg0.N) (h0 : t.val % 2 = 0) (p : Fin 2) (r : Fin 1000) (f : Fin 96) :
    (outsAt0 m c t.val t.isLt).1 (ix4 (0 : Fin 1) p r f)
      = tileOut (scr (F := Ideal) (fun _ _ _ => Scalar.ofBits (F := Ideal) .f32 0x00000000#32) (iblk m c 0 t)) (iblk m c 0 t) (iblk m c 1 t) (iblk m c 2 t) p r f := by
  rw [outsAt0_A m c t h0]
  dsimp only
  exact out_first c (grid0.coords t) (ms0_0 t) (hs0_0 t) (ms0_1 t) (hs0_1 t) (ms0_2 t) (hs0_2 t) (ms0_3 t) (hs0_3 t) scM0_0 (Memref.isWhole_whole _) ((hcond0_0 t).mpr h0) (iblk m c 0 t) (iblk m c 1 t) (iblk m c 2 t) p r f

/-- After a later tile: the tile's output over the halo the point before left. -/
theorem later_at (t : Fin cfg0.N) (h0 : ¬t.val % 2 = 0) (p : Fin 2) (r : Fin 1000) (f : Fin 96) :
    (outsAt0 m c t.val t.isLt).1 (ix4 (0 : Fin 1) p r f)
      = tileOut (scr (F := Ideal) (fun c' s f => (outsAt0 m c (t.val - 1) (Nat.lt_of_le_of_lt (Nat.sub_le _ _) t.isLt)).2 (ix3 c' s f)) (iblk m c 0 t))
          (iblk m c 0 t) (iblk m c 1 t) (iblk m c 2 t) p r f := by
  rw [outsAt0_B m c t h0]
  dsimp only
  exact out_later c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (iblk m c 0 t) (iblk m c 1 t) (iblk m c 2 t)
    (outsAt0 m c (t.val - 1) (Nat.lt_of_le_of_lt (Nat.sub_le _ _) t.isLt)).2 p r f

/-- The halo an odd point finds: the batch's samples 996 … 999. -/
theorem halo_prev (t : Fin cfg0.N) (h0 : ¬t.val % 2 = 0) (p : Fin 2) (q : Fin 4) (f : Fin 96) :
    (outsAt0 m c (t.val - 1) (Nat.lt_of_le_of_lt (Nat.sub_le _ _) t.isLt)).2 (ix3 p (⟨q.val, by omega⟩ : Fin 1004) f)
      = X m c (ix5 (⟨t.val / 2, by have := pt_lt32 t; omega⟩ : Fin 16) (0 : Fin 1) (⟨996 + q.val, by omega⟩ : Fin 2000) (⟨f.val, by omega⟩ : Fin 481) p) := by
  have hN := pt_lt32 t
  have hprev : t.val - 1 < cfg0.N := Nat.lt_of_le_of_lt (Nat.sub_le _ _) t.isLt
  refine (halo_rows m c ⟨t.val - 1, hprev⟩ p q f).trans ?_
  refine (iblk0_at m c ⟨t.val - 1, hprev⟩ p (⟨996 + q.val, by omega⟩ : Fin 1000) f).trans ?_
  refine congrArg (X m c) (funext fun a => ?_)
  match a with
  | ⟨0, _⟩ => exact Fin.ext (by show (t.val - 1) / 2 = t.val / 2; omega)
  | ⟨1, _⟩ => rfl
  | ⟨2, _⟩ => exact Fin.ext (by show 1000 * ((t.val - 1) % 2) + (996 + q.val) = 996 + q.val; omega)
  | ⟨3, _⟩ => rfl
  | ⟨4, _⟩ => rfl

/-- THE BLOCK A POINT WRITES BACK is the specification's blended value on the tile's rows. -/
theorem point_at (t : Fin cfg0.N) (p : Fin 2) (r : Fin 1000) (f : Fin 96) :
    (outsAt0 m c t.val t.isLt).1 (ix4 (0 : Fin 1) p r f)
      = Cert.Spec.upd (X m c) (Wc m c) (A m c)
          (ix5 (⟨t.val / 2, by have := pt_lt32 t; omega⟩ : Fin 16) (0 : Fin 1) (⟨1000 * (t.val % 2) + r.val, by omega⟩ : Fin 2000) f p) := by
  have hN := pt_lt32 t
  by_cases h0 : t.val % 2 = 0
  · refine (first_at m c t h0 p r f).trans ?_
    exact tileOut_eq_upd (X m c) (Wc m c) (A m c) (⟨t.val / 2, by omega⟩ : Fin 16) (t.val % 2) (by omega) _ (iblk m c 0 t) (iblk m c 1 t) (iblk m c 2 t)
      (scr_past_first (X m c) (⟨t.val / 2, by omega⟩ : Fin 16) (t.val % 2) (by omega) (iblk m c 0 t) (iblk0_at m c t) h0)
      (iblk0_at m c t) (iblk1_at m c t) (iblk2_at m c t) p r f
  · refine (later_at m c t h0 p r f).trans ?_
    exact tileOut_eq_upd (X m c) (Wc m c) (A m c) (⟨t.val / 2, by omega⟩ : Fin 16) (t.val % 2) (by omega) _ (iblk m c 0 t) (iblk m c 1 t) (iblk m c 2 t)
      (scr_past_later (X m c) (⟨t.val / 2, by omega⟩ : Fin 16) (t.val % 2) (by omega) (iblk m c 0 t) (iblk0_at m c t) (by omega)
        (outsAt0 m c (t.val - 1) (Nat.lt_of_le_of_lt (Nat.sub_le _ _) t.isLt)).2 (halo_prev m c t h0))
      (iblk0_at m c t) (iblk1_at m c t) (iblk2_at m c t) p r f

end Cert.KernelIdeal.Pt

end
-- ==== Proof.KernelValue.lean ====
/-
  The kernel's result array, and the whole program's result.

  Output block t = (b, j) covers rows 1000·j … 1000·j + 999 of batch b (both parts, all 96 bins) of the kernel's result
  array, and every point writes its block back; the 32 blocks tile the array. Each block holds the specification's
  blended value on its rows, so the array after the run is the specification with the part axis moved in front of
  the time axis. The host operations after the call move it back, add the unit channel axis and write the 96 filtered
  bins over the first 96 bins of the spectrum.
-/
import proofs.«177004_j30185030156318_2_alg».proof.Proof.Points

set_option maxRecDepth 16384
set_option maxHeartbeats 400000

noncomputable section

namespace Cert.KernelIdeal.Pt

open Idealize.ShloMosaic Idealize.ShloMosaic.TcCoe Idealize.SL.Sem
open Idealize.ShloMosaic.ValueIdx Cert.KernelIdeal Cert.KernelIdeal.Gen Cert.KernelIdeal.Body Cert.KernelIdeal.Host
open Idealize.ShloMosaic.Pipeline (Dat)

variable (m : (ℓ : Loc nD τ sig) → Buf (Elt Ideal) ℓ) (ρ : Dev nD → PrngReg) (c : Dev nD)

/-- WHAT POINT t WRITES BACK is block t of the specification (part axis in front). -/
theorem flushed_eq (t : Fin cfg0.N) :
    (dats m 0 c).flushed 3 t = ((cfg0.win 3).blk t).view.read (Elt Ideal) (G m c) := by
  obtain ⟨-, -, -, e3⟩ := idx_facts t
  have i0 : win0_3.index t (0 : Fin 4) = t.val / 2 := congrFun e3 0
  have i1 : win0_3.index t (1 : Fin 4) = 0 := congrFun e3 1
  have i2 : win0_3.index t (2 : Fin 4) = t.val % 2 := congrFun e3 2
  have i3 : win0_3.index t (3 : Fin 4) = 0 := congrFun e3 3
  have hN := pt_lt32 t
  show (cfg0.win 3).cut (grid0.coords t) ((dats m 0 c).after 3 t) = _
  rw [after0_3]
  funext y
  obtain ⟨u, p, r, f, rfl⟩ : ∃ (u : Fin 1) (p : Fin 2) (r : Fin 1000) (f : Fin 96), y = ix4 u p r f :=
    ⟨y 0, y 1, y 2, y 3, eq_ix4 y⟩
  obtain rfl : u = 0 := Subsingleton.elim _ _
  show (outsAt0 m c t.val t.isLt).1 (ix4 (0 : Fin 1) p r f) = G m c (((cfg0.win 3).blk t).view.emb (ix4 (0 : Fin 1) p r f))
  rw [point_at m c t p r f]
  unfold G
  refine congrArg (Cert.Spec.upd _ _ _) (funext fun a => ?_)
  match a with
  | ⟨0, _⟩ => exact Fin.ext (by show t.val / 2 = win0_3.index t (0 : Fin 4) * 1 + 1 * 0; rw [i0]; omega)
  | ⟨1, _⟩ => rfl
  | ⟨2, _⟩ => exact Fin.ext (by show 1000 * (t.val % 2) + r.val = win0_3.index t (2 : Fin 4) * 1000 + 1 * r.val; rw [i2]; omega)
  | ⟨3, _⟩ => exact Fin.ext (by show f.val = win0_3.index t (3 : Fin 4) * 96 + 1 * f.val; rw [i3]; omega)
  | ⟨4, _⟩ => exact Fin.ext (by show p.val = win0_3.index t (1 : Fin 4) * 2 + 1 * p.val; rw [i1]; omega)

/-- An index of the result array is in point t's block iff each coordinate is in the block's range on its axis. -/
theorem mem_blk (t : Fin cfg0.N) (i : S16x2x2000x96.Idx) :
    i ∈ ((cfg0.win 3).blk t).view.set ↔ ∀ a : Fin 4, win0_3.index t a * S1x2x1000x96.size a ≤ (i a).val
      ∧ (i a).val < win0_3.index t a * S1x2x1000x96.size a + S1x2x1000x96.size a := by
  show i ∈ ((View.whole main_v4).slice (win0_3.rect t)).set ↔ _
  rw [View.set_slice_whole, Rect.mem_set_unit]
  exact Iff.rfl

/-- The blocks tile the array: index (b, p, s, f) is in the block of point 2·b + s div 1000. -/
theorem cover (i : S16x2x2000x96.Idx) : ∃ t : Fin cfg0.N, (cfg0.win 3).flush t = true ∧ i ∈ ((cfg0.win 3).blk t).view.set := by
  have h0 : (i 0).val < 16 := (i 0).isLt
  have h1 : (i 1).val < 2 := (i 1).isLt
  have h2 : (i 2).val < 2000 := (i 2).isLt
  have h3 : (i 3).val < 96 := (i 3).isLt
  have hlt : 2 * (i 0).val + (i 2).val / 1000 < cfg0.N := by rw [show cfg0.N = 32 from N_0]; omega
  refine ⟨⟨2 * (i 0).val + (i 2).val / 1000, hlt⟩, flush0_3 _, (mem_blk _ i).mpr fun a => ?_⟩
  obtain ⟨-, -, -, e3⟩ := idx_facts ⟨2 * (i 0).val + (i 2).val / 1000, hlt⟩
  have i0 : win0_3.index ⟨2 * (i 0).val + (i 2).val / 1000, hlt⟩ (0 : Fin 4) = (2 * (i 0).val + (i 2).val / 1000) / 2 := congrFun e3 0
  have i1 : win0_3.index ⟨2 * (i 0).val + (i 2).val / 1000, hlt⟩ (1 : Fin 4) = 0 := congrFun e3 1
  have i2 : win0_3.index ⟨2 * (i 0).val + (i 2).val / 1000, hlt⟩ (2 : Fin 4) = (2 * (i 0).val + (i 2).val / 1000) % 2 := congrFun e3 2
  have i3 : win0_3.index ⟨2 * (i 0).val + (i 2).val / 1000, hlt⟩ (3 : Fin 4) = 0 := congrFun e3 3
  match a with
  | ⟨0, _⟩ =>
    show win0_3.index _ (0 : Fin 4) * 1 ≤ (i 0).val ∧ (i 0).val < win0_3.index _ (0 : Fin 4) * 1 + 1
    rw [i0]; omega
  | ⟨1, _⟩ =>
    show win0_3.index _ (1 : Fin 4) * 2 ≤ (i 1).val ∧ (i 1).val < win0_3.index _ (1 : Fin 4) * 2 + 2
    rw [i1]; omega
  | ⟨2, _⟩ =>
    show win0_3.index _ (2 : Fin 4) * 1000 ≤ (i 2).val ∧ (i 2).val < win0_3.index _ (2 : Fin 4) * 1000 + 1000
    rw [i2]; omega
  | ⟨3, _⟩ =>
    show win0_3.index _ (3 : Fin 4) * 96 ≤ (i 3).val ∧ (i 3).val < win0_3.index _ (3 : Fin 4) * 96 + 96
    rw [i3]; omega

/-- THE KERNEL'S RESULT ARRAY after the run is the specification (part axis in front). -/
theorem final : (dats m 0 c).arrAt 3 cfg0.N = G m c :=
  (dats m 0 c).arrAt_eq_of_cover 3 (G m c) (fun t _ => flushed_eq m c t) (cover)

/-- THE RUN, READ: the program's result is the spectrum with the specification written over its first 96 bins, the
    arguments unchanged. -/
theorem run : θ_run defs (onTc (τ := τ) (main (F := Ideal))) ⟨m, fun _ => 0, ρ⟩ fun r => ∀ c : Dev nD,
      r.2.mem ((c.tc : Thread nD τ).loc main_v8)
          = Host.scatter scatter_S16x1x2000x481x2_S1_S16x1x2000x96x2_01234_n_3_0 (fun _ b => b) (m ((c.tc : Thread nD τ).loc main_arg0))
              (broadcastInDim S1 ![] bcast_S_S1 (constantI S_ 32 0#32))
              (Cert.Spec.upd (m ((c.tc : Thread nD τ).loc main_arg0)) (m ((c.tc : Thread nD τ).loc main_arg1)) (m ((c.tc : Thread nD τ).loc main_arg2)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v8 (Pipeline.mem_restRefs_of main_v8 (by decide) (by decide))).trans (tail m c (final m c)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).1 2).trans (((dats m 0 c).arrAt_in 2 rfl _).trans ((A_eq m c 2).trans (V_main_arg2 m c)))⟩)
    (run_main m ρ)

end Cert.KernelIdeal.Pt

end
-- ==== Proof.RefSide.lean ====
/-
  The reference program computes the specification.

  The reference pads the first 96 bins of the spectrum with four zero samples before time 0, takes the five windows of
  the padded signal that start 0 … 4 samples in, stacks them on a tap axis, multiplies each tap by its coefficient as
  complex numbers (real and imaginary parts computed apart, then joined on the last axis), sums over the taps from
  zero, and blends the sum with the signal.  Each step is read here at an index: the padded signal is `past`, the
  stacked windows are `past` at time t + k, the joined products are `tap`, their sum is `fir`, and the blended value is
  `upd`.  Nothing but unfolding is used: the index arithmetic of the reshapes (a row-major position divided back into
  coordinates) is the only computation.
-/
import proofs.«177004_j30185030156318_2_alg».proof.Proof.RefReadP
import proofs.«177004_j30185030156318_2_alg».proof.Proof.Spec
import Idealize.ShloMosaic.Lib.ValueIdx
import Idealize.ShloMosaic.Lib.Pipeline.Value
import Idealize.ShloMosaic.Lib.KernelVsHost
import Idealize.ShloMosaic.PureOps.Ideal.Laws

noncomputable section

open scoped BigOperators

namespace Cert.ReferenceIdeal.RefValue

open Cert.ReferenceIdeal Cert.ReferenceIdeal.Gen Cert.ReferenceIdeal.ReadP Cert.Spec
open Idealize.ShloMosaic Idealize.ShloMosaic.ValueIdx

/-- The spectrum's contents. -/
abbrev X0 : Type := (⟨S16x1x2000x481x2, .f32⟩ : BufTy).Contents (Elt Ideal)
/-- The coefficients' contents. -/
abbrev X1 : Type := (⟨S16x2000x5x96x2, .f32⟩ : BufTy).Contents (Elt Ideal)
/-- The blend factor's contents. -/
abbrev X2 : Type := (⟨S16x2000x1, .f32⟩ : BufTy).Contents (Elt Ideal)

/-! ## The padded signal -/

/-- Dropping the unit channel axis of the first 96 bins and reading at (b, t, f, c) reads the spectrum at
    (b, 0, t, f, c): the row-major position divides back into the same coordinates. -/
theorem idx_first96 (b : Fin 16) (t : Fin 2000) (f : Fin 96) (c : Fin 2) :
    idx_main_v0 (idx_main_v1 (ix4 b t f c)) = ix5 b (0 : Fin 1) t (⟨f.val, by omega⟩ : Fin 481) c :=
  funext fun a => Fin.ext (by
    match a with
    | ⟨0, _⟩ => show (((b.val * 2000 + t.val) * 96 + f.val) * 2 + c.val) / 384000 = b.val; omega
    | ⟨1, _⟩ => rfl
    | ⟨2, _⟩ => show (((b.val * 2000 + t.val) * 96 + f.val) * 2 + c.val) / 192 % 2000 = t.val; omega
    | ⟨3, _⟩ => show (((b.val * 2000 + t.val) * 96 + f.val) * 2 + c.val) / 2 % 96 = f.val; omega
    | ⟨4, _⟩ => show (((b.val * 2000 + t.val) * 96 + f.val) * 2 + c.val) % 2 = c.val; omega)

/-- The padding value, the integer zero converted to a float, is zero. -/
theorem pad_value (i : S_.Idx) : val_main_call0_v0 (F := Ideal) i = 0 := by
  rw [val_main_call0_v0_apply, val_main_c_apply]
  show (((0#32 : BitVec 32).toInt : ℝ) : EReal) = 0
  have e : (0#32 : BitVec 32).toInt = 0 := by decide
  rw [e, Int.cast_zero, EReal.coe_zero]

/-- Four samples of padding before time 0 on the time axis: position s of the padded axis holds sample s - 4, and the
    padding value at the four positions before. -/
theorem pad4_apply {α : Type} (x : S16x2000x96x2.Idx → α) (v : S_.Idx → α)
    (b : Fin 16) (s : Fin 2004) (f : Fin 96) (c : Fin 2) :
    pad S16x2004x96x2 ![0, 4, 0, 0] ![0, 0, 0, 0] ![0, 0, 0, 0] x v pads_S16x2000x96x2_S16x2004x96x2_000_400_000_000 h_S_ (ix4 b s f c)
      = if h : 4 ≤ s.val then x (ix4 b (⟨s.val - 4, by omega⟩ : Fin 2000) f c) else v (Shape.Idx.first h_S_) := by
  by_cases h : 4 ≤ s.val
  · rw [dif_pos h]
    exact pad_apply_of_inside (s := S16x2000x96x2) (t := S16x2004x96x2) ![0, 4, 0, 0] ![0, 0, 0, 0] ![0, 0, 0, 0] x v
      pads_S16x2000x96x2_S16x2004x96x2_000_400_000_000 h_S_ (ix4 b s f c) (ix4 b (⟨s.val - 4, by omega⟩ : Fin 2000) f c)
      (fun a => by
        match a with
        | ⟨0, _⟩ => show b.val = 0 + b.val * (0 + 1); omega
        | ⟨1, _⟩ => show s.val = 4 + (s.val - 4) * (0 + 1); omega
        | ⟨2, _⟩ => show f.val = 0 + f.val * (0 + 1); omega
        | ⟨3, _⟩ => show c.val = 0 + c.val * (0 + 1); omega)
  · rw [dif_neg h]
    exact pad_apply_of_not_inside (s := S16x2000x96x2) (t := S16x2004x96x2) ![0, 4, 0, 0] ![0, 0, 0, 0] ![0, 0, 0, 0] x v
      pads_S16x2000x96x2_S16x2004x96x2_000_400_000_000 h_S_ (ix4 b s f c) (1 : Fin 4) (fun hin => h hin.1)

/-- The padded signal is the signal delayed by four samples, zero before time 0. -/
theorem v2_eq (x0 : X0) (b : Fin 16) (s : Fin 2004) (f : Fin 96) (c : Fin 2) :
    val_main_v2 (F := Ideal) x0 (ix4 b s f c) = past x0 b s f c := by
  unfold val_main_v2 past
  rw [pad4_apply]
  by_cases h : 4 ≤ s.val
  · rw [dif_pos h, dif_pos h, val_main_v1_apply, val_main_v0_apply, idx_first96]
  · rw [dif_neg h, dif_neg h, pad_value]

/-! ## The five windows, stacked on the tap axis -/

theorem idx_slice0 (b : Fin 16) (t : Fin 2000) (z : Fin 1) (f : Fin 96) (c : Fin 2) :
    idx_main_v3 (idx_main_v8 (ix5 b t z f c)) = ix4 b (⟨t.val + 0, by omega⟩ : Fin 2004) f c :=
  funext fun a => Fin.ext (by
    match a with
    | ⟨0, _⟩ => rfl
    | ⟨1, _⟩ => rfl
    | ⟨2, _⟩ => rfl
    | ⟨3, _⟩ => rfl)

/-- Window 0: the delayed signal read 0 samples later. -/
theorem v8_eq (x0 : X0) (b : Fin 16) (t : Fin 2000) (z : Fin 1) (f : Fin 96) (c : Fin 2) :
    val_main_v8 (F := Ideal) x0 (ix5 b t z f c) = past x0 b ⟨t.val + 0, by omega⟩ f c := by
  rw [val_main_v8_apply, val_main_v3_apply, idx_slice0, v2_eq]

theorem idx_slice1 (b : Fin 16) (t : Fin 2000) (z : Fin 1) (f : Fin 96) (c : Fin 2) :
    idx_main_v4 (idx_main_v9 (ix5 b t z f c)) = ix4 b (⟨t.val + 1, by omega⟩ : Fin 2004) f c :=
  funext fun a => Fin.ext (by
    match a with
    | ⟨0, _⟩ => rfl
    | ⟨1, _⟩ => show 1 + t.val = t.val + 1; omega
    | ⟨2, _⟩ => rfl
    | ⟨3, _⟩ => rfl)

/-- Window 1: the delayed signal read 1 sample later. -/
theorem v9_eq (x0 : X0) (b : Fin 16) (t : Fin 2000) (z : Fin 1) (f : Fin 96) (c : Fin 2) :
    val_main_v9 (F := Ideal) x0 (ix5 b t z f c) = past x0 b ⟨t.val + 1, by omega⟩ f c := by
  rw [val_main_v9_apply, val_main_v4_apply, idx_slice1, v2_eq]

theorem idx_slice2 (b : Fin 16) (t : Fin 2000) (z : Fin 1) (f : Fin 96) (c : Fin 2) :
    idx_main_v5 (idx_main_v10 (ix5 b t z f c)) = ix4 b (⟨t.val + 2, by omega⟩ : Fin 2004) f c :=
  funext fun a => Fin.ext (by
    match a with
    | ⟨0, _⟩ => rfl
    | ⟨1, _⟩ => show 2 + t.val = t.val + 2; omega
    | ⟨2, _⟩ => rfl
    | ⟨3, _⟩ => rfl)

/-- Window 2: the delayed signal read 2 samples later. -/
theorem v10_eq (x0 : X0) (b : Fin 16) (t : Fin 2000) (z : Fin 1) (f : Fin 96) (c : Fin 2) :
    val_main_v10 (F := Ideal) x0 (ix5 b t z f c) = past x0 b ⟨t.val + 2, by omega⟩ f c := by
  rw [val_main_v10_apply, val_main_v5_apply, idx_slice2, v2_eq]

theorem idx_slice3 (b : Fin 16) (t : Fin 2000) (z : Fin 1) (f : Fin 96) (c : Fin 2) :
    idx_main_v6 (idx_main_v11 (ix5 b t z f c)) = ix4 b (⟨t.val + 3, by omega⟩ : Fin 2004) f c :=
  funext fun a => Fin.ext (by
    match a with
    | ⟨0, _⟩ => rfl
    | ⟨1, _⟩ => show 3 + t.val = t.val + 3; omega
    | ⟨2, _⟩ => rfl
    | ⟨3, _⟩ => rfl)

/-- Window 3: the delayed signal read 3 samples later. -/
theorem v11_eq (x0 : X0) (b : Fin 16) (t : Fin 2000) (z : Fin 1) (f : Fin 96) (c : Fin 2) :
    val_main_v11 (F := Ideal) x0 (ix5 b t z f c) = past x0 b ⟨t.val + 3, by omega⟩ f c := by
  rw [val_main_v11_apply, val_main_v6_apply, idx_slice3, v2_eq]

theorem idx_slice4 (b : Fin 16) (t : Fin 2000) (z : Fin 1) (f : Fin 96) (c : Fin 2) :
    idx_main_v7 (idx_main_v12 (ix5 b t z f c)) = ix4 b (⟨t.val + 4, by omega⟩ : Fin 2004) f c :=
  funext fun a => Fin.ext (by
    match a with
    | ⟨0, _⟩ => rfl
    | ⟨1, _⟩ => show 4 + t.val = t.val + 4; omega
    | ⟨2, _⟩ => rfl
    | ⟨3, _⟩ => rfl)

/-- Window 4: the delayed signal read 4 samples later. -/
theorem v12_eq (x0 : X0) (b : Fin 16) (t : Fin 2000) (z : Fin 1) (f : Fin 96) (c : Fin 2) :
    val_main_v12 (F := Ideal) x0 (ix5 b t z f c) = past x0 b ⟨t.val + 4, by omega⟩ f c := by
  rw [val_main_v12_apply, val_main_v7_apply, idx_slice4, v2_eq]

/-- Five arrays with a unit axis 2 joined on that axis: entry k on the axis reads array k. -/
theorem stack5_apply {α : Type} (y0 y1 y2 y3 y4 : S16x2000x1x96x2.Idx → α)
    (b : Fin 16) (t : Fin 2000) (k : Fin 5) (f : Fin 96) (c : Fin 2) :
    concatenate S16x2000x5x96x2 2
        [⟨S16x2000x1x96x2, y0⟩, ⟨S16x2000x1x96x2, y1⟩, ⟨S16x2000x1x96x2, y2⟩, ⟨S16x2000x1x96x2, y3⟩, ⟨S16x2000x1x96x2, y4⟩]
        concatenates_S16x2000x1x96x2_S16x2000x1x96x2_S16x2000x1x96x2_S16x2000x1x96x2_S16x2000x1x96x2_S16x2000x5x96x2_d2 (ix5 b t k f c)
      = (match k with | ⟨0, _⟩ => y0 | ⟨1, _⟩ => y1 | ⟨2, _⟩ => y2 | ⟨3, _⟩ => y3 | ⟨4, _⟩ => y4)
          (ix5 b t (0 : Fin 1) f c) := by
  match k with
  | ⟨0, hk⟩ =>
    exact concatenate_apply_piece (t := S16x2000x5x96x2) (2 : Fin S16x2000x5x96x2.rank)
      ([⟨S16x2000x1x96x2, y0⟩, ⟨S16x2000x1x96x2, y1⟩, ⟨S16x2000x1x96x2, y2⟩, ⟨S16x2000x1x96x2, y3⟩, ⟨S16x2000x1x96x2, y4⟩] : List ((s : Shape) × (s.Idx → α)))
      concatenates_S16x2000x1x96x2_S16x2000x1x96x2_S16x2000x1x96x2_S16x2000x1x96x2_S16x2000x1x96x2_S16x2000x5x96x2_d2 (ix5 b t (⟨0, hk⟩ : Fin 5) f c) 0 (show 0 < 5 by omega) S16x2000x1x96x2 y0 rfl rfl 0 rfl
      (ix5 b t (0 : Fin 1) f c) (fun a ha => by
        match a, ha with
        | ⟨0, _⟩, _ => rfl
        | ⟨1, _⟩, _ => rfl
        | ⟨2, _⟩, ha => exact (ha rfl).elim
        | ⟨3, _⟩, _ => rfl
        | ⟨4, _⟩, _ => rfl) rfl
  | ⟨1, hk⟩ =>
    exact concatenate_apply_piece (t := S16x2000x5x96x2) (2 : Fin S16x2000x5x96x2.rank)
      ([⟨S16x2000x1x96x2, y0⟩, ⟨S16x2000x1x96x2, y1⟩, ⟨S16x2000x1x96x2, y2⟩, ⟨S16x2000x1x96x2, y3⟩, ⟨S16x2000x1x96x2, y4⟩] : List ((s : Shape) × (s.Idx → α)))
      concatenates_S16x2000x1x96x2_S16x2000x1x96x2_S16x2000x1x96x2_S16x2000x1x96x2_S16x2000x1x96x2_S16x2000x5x96x2_d2 (ix5 b t (⟨1, hk⟩ : Fin 5) f c) 1 (show 1 < 5 by omega) S16x2000x1x96x2 y1 rfl rfl 1 rfl
      (ix5 b t (0 : Fin 1) f c) (fun a ha => by
        match a, ha with
        | ⟨0, _⟩, _ => rfl
        | ⟨1, _⟩, _ => rfl
        | ⟨2, _⟩, ha => exact (ha rfl).elim
        | ⟨3, _⟩, _ => rfl
        | ⟨4, _⟩, _ => rfl) rfl
  | ⟨2, hk⟩ =>
    exact concatenate_apply_piece (t := S16x2000x5x96x2) (2 : Fin S16x2000x5x96x2.rank)
      ([⟨S16x2000x1x96x2, y0⟩, ⟨S16x2000x1x96x2, y1⟩, ⟨S16x2000x1x96x2, y2⟩, ⟨S16x2000x1x96x2, y3⟩, ⟨S16x2000x1x96x2, y4⟩] : List ((s : Shape) × (s.Idx → α)))
      concatenates_S16x2000x1x96x2_S16x2000x1x96x2_S16x2000x1x96x2_S16x2000x1x96x2_S16x2000x1x96x2_S16x2000x5x96x2_d2 (ix5 b t (⟨2, hk⟩ : Fin 5) f c) 2 (show 2 < 5 by omega) S16x2000x1x96x2 y2 rfl rfl 2 rfl
      (ix5 b t (0 : Fin 1) f c) (fun a ha => by
        match a, ha with
        | ⟨0, _⟩, _ => rfl
        | ⟨1, _⟩, _ => rfl
        | ⟨2, _⟩, ha => exact (ha rfl).elim
        | ⟨3, _⟩, _ => rfl
        | ⟨4, _⟩, _ => rfl) rfl
  | ⟨3, hk⟩ =>
    exact concatenate_apply_piece (t := S16x2000x5x96x2) (2 : Fin S16x2000x5x96x2.rank)
      ([⟨S16x2000x1x96x2, y0⟩, ⟨S16x2000x1x96x2, y1⟩, ⟨S16x2000x1x96x2, y2⟩, ⟨S16x2000x1x96x2, y3⟩, ⟨S16x2000x1x96x2, y4⟩] : List ((s : Shape) × (s.Idx → α)))
      concatenates_S16x2000x1x96x2_S16x2000x1x96x2_S16x2000x1x96x2_S16x2000x1x96x2_S16x2000x1x96x2_S16x2000x5x96x2_d2 (ix5 b t (⟨3, hk⟩ : Fin 5) f c) 3 (show 3 < 5 by omega) S16x2000x1x96x2 y3 rfl rfl 3 rfl
      (ix5 b t (0 : Fin 1) f c) (fun a ha => by
        match a, ha with
        | ⟨0, _⟩, _ => rfl
        | ⟨1, _⟩, _ => rfl
        | ⟨2, _⟩, ha => exact (ha rfl).elim
        | ⟨3, _⟩, _ => rfl
        | ⟨4, _⟩, _ => rfl) rfl
  | ⟨4, hk⟩ =>
    exact concatenate_apply_piece (t := S16x2000x5x96x2) (2 : Fin S16x2000x5x96x2.rank)
      ([⟨S16x2000x1x96x2, y0⟩, ⟨S16x2000x1x96x2, y1⟩, ⟨S16x2000x1x96x2, y2⟩, ⟨S16x2000x1x96x2, y3⟩, ⟨S16x2000x1x96x2, y4⟩] : List ((s : Shape) × (s.Idx → α)))
      concatenates_S16x2000x1x96x2_S16x2000x1x96x2_S16x2000x1x96x2_S16x2000x1x96x2_S16x2000x1x96x2_S16x2000x5x96x2_d2 (ix5 b t (⟨4, hk⟩ : Fin 5) f c) 4 (show 4 < 5 by omega) S16x2000x1x96x2 y4 rfl rfl 4 rfl
      (ix5 b t (0 : Fin 1) f c) (fun a ha => by
        match a, ha with
        | ⟨0, _⟩, _ => rfl
        | ⟨1, _⟩, _ => rfl
        | ⟨2, _⟩, ha => exact (ha rfl).elim
        | ⟨3, _⟩, _ => rfl
        | ⟨4, _⟩, _ => rfl) rfl

/-- The stacked windows: tap k at time t is the delayed signal at time t + k. -/
theorem v13_eq (x0 : X0) (b : Fin 16) (t : Fin 2000) (k : Fin 5) (f : Fin 96) (c : Fin 2) :
    val_main_v13 (F := Ideal) x0 (ix5 b t k f c) = past x0 b ⟨t.val + k.val, by omega⟩ f c := by
  unfold val_main_v13
  rw [stack5_apply]
  match k with
  | ⟨0, _⟩ => exact v8_eq x0 b t 0 f c
  | ⟨1, _⟩ => exact v9_eq x0 b t 0 f c
  | ⟨2, _⟩ => exact v10_eq x0 b t 0 f c
  | ⟨3, _⟩ => exact v11_eq x0 b t 0 f c
  | ⟨4, _⟩ => exact v12_eq x0 b t 0 f c

/-! ## Real and imaginary parts of the windows and of the coefficients -/

/-- Adding a trailing unit axis back: the row-major position of (b, t, k, f) divides into (b, t, k, f, 0). -/
theorem idx_unit (b : Fin 16) (t : Fin 2000) (k : Fin 5) (f : Fin 96) :
    idx_main_v15 (ix4 b t k f) = ix5 b t k f (0 : Fin 1) :=
  funext fun a => Fin.ext (by
    match a with
    | ⟨0, _⟩ => show (((b.val * 2000 + t.val) * 5 + k.val) * 96 + f.val) / 960000 = b.val; omega
    | ⟨1, _⟩ => show (((b.val * 2000 + t.val) * 5 + k.val) * 96 + f.val) / 480 % 2000 = t.val; omega
    | ⟨2, _⟩ => show (((b.val * 2000 + t.val) * 5 + k.val) * 96 + f.val) / 96 % 5 = k.val; omega
    | ⟨3, _⟩ => show (((b.val * 2000 + t.val) * 5 + k.val) * 96 + f.val) / 1 % 96 = f.val; omega
    | ⟨4, _⟩ => rfl)

/-- Part 0 of the last axis, read through a trailing unit axis. -/
theorem idx_part0 (b : Fin 16) (t : Fin 2000) (k : Fin 5) (f : Fin 96) :
    idx_main_v14 (ix5 b t k f (0 : Fin 1)) = ix5 b t k f (0 : Fin 2) :=
  funext fun a => Fin.ext (by
    match a with | ⟨0, _⟩ => rfl | ⟨1, _⟩ => rfl | ⟨2, _⟩ => rfl | ⟨3, _⟩ => rfl | ⟨4, _⟩ => rfl)

/-- Part 1 of the last axis, read through a trailing unit axis. -/
theorem idx_part1 (b : Fin 16) (t : Fin 2000) (k : Fin 5) (f : Fin 96) :
    idx_main_v19 (ix5 b t k f (0 : Fin 1)) = ix5 b t k f (1 : Fin 2) :=
  funext fun a => Fin.ext (by
    match a with | ⟨0, _⟩ => rfl | ⟨1, _⟩ => rfl | ⟨2, _⟩ => rfl | ⟨3, _⟩ => rfl | ⟨4, _⟩ => rfl)

/-- The windows' real part. -/
theorem v15_eq (x0 : X0) (b : Fin 16) (t : Fin 2000) (k : Fin 5) (f : Fin 96) :
    val_main_v15 (F := Ideal) x0 (ix4 b t k f) = past x0 b ⟨t.val + k.val, by omega⟩ f 0 := by
  rw [val_main_v15_apply, val_main_v14_apply, idx_unit, idx_part0, v13_eq]

/-- The windows' imaginary part. -/
theorem v20_eq (x0 : X0) (b : Fin 16) (t : Fin 2000) (k : Fin 5) (f : Fin 96) :
    val_main_v20 (F := Ideal) x0 (ix4 b t k f) = past x0 b ⟨t.val + k.val, by omega⟩ f 1 := by
  rw [val_main_v20_apply, val_main_v19_apply,
    (show idx_main_v20 (ix4 b t k f) = ix5 b t k f (0 : Fin 1) from idx_unit b t k f), idx_part1, v13_eq]

/-- The windows' imaginary part, taken a second time. -/
theorem v26_eq (x0 : X0) (b : Fin 16) (t : Fin 2000) (k : Fin 5) (f : Fin 96) :
    val_main_v26 (F := Ideal) x0 (ix4 b t k f) = past x0 b ⟨t.val + k.val, by omega⟩ f 1 := by
  rw [val_main_v26_apply, val_main_v25_apply,
    (show idx_main_v26 (ix4 b t k f) = ix5 b t k f (0 : Fin 1) from idx_unit b t k f),
    (show idx_main_v25 (ix5 b t k f (0 : Fin 1)) = ix5 b t k f (1 : Fin 2) from idx_part1 b t k f), v13_eq]

/-- The windows' real part, taken a second time. -/
theorem v31_eq (x0 : X0) (b : Fin 16) (t : Fin 2000) (k : Fin 5) (f : Fin 96) :
    val_main_v31 (F := Ideal) x0 (ix4 b t k f) = past x0 b ⟨t.val + k.val, by omega⟩ f 0 := by
  rw [val_main_v31_apply, val_main_v30_apply,
    (show idx_main_v31 (ix4 b t k f) = ix5 b t k f (0 : Fin 1) from idx_unit b t k f),
    (show idx_main_v30 (ix5 b t k f (0 : Fin 1)) = ix5 b t k f (0 : Fin 2) from idx_part0 b t k f), v13_eq]

/-- The coefficients' real part. -/
theorem v17_eq (x1 : X1) (b : Fin 16) (t : Fin 2000) (k : Fin 5) (f : Fin 96) :
    val_main_v17 (F := Ideal) x1 (ix4 b t k f) = x1 (ix5 b t k f (0 : Fin 2)) := by
  rw [val_main_v17_apply, val_main_v16_apply,
    (show idx_main_v17 (ix4 b t k f) = ix5 b t k f (0 : Fin 1) from idx_unit b t k f),
    (show idx_main_v16 (ix5 b t k f (0 : Fin 1)) = ix5 b t k f (0 : Fin 2) from idx_part0 b t k f)]

/-- The coefficients' imaginary part. -/
theorem v22_eq (x1 : X1) (b : Fin 16) (t : Fin 2000) (k : Fin 5) (f : Fin 96) :
    val_main_v22 (F := Ideal) x1 (ix4 b t k f) = x1 (ix5 b t k f (1 : Fin 2)) := by
  rw [val_main_v22_apply, val_main_v21_apply,
    (show idx_main_v22 (ix4 b t k f) = ix5 b t k f (0 : Fin 1) from idx_unit b t k f),
    (show idx_main_v21 (ix5 b t k f (0 : Fin 1)) = ix5 b t k f (1 : Fin 2) from idx_part1 b t k f)]

/-- The coefficients' real part, taken a second time. -/
theorem v28_eq (x1 : X1) (b : Fin 16) (t : Fin 2000) (k : Fin 5) (f : Fin 96) :
    val_main_v28 (F := Ideal) x1 (ix4 b t k f) = x1 (ix5 b t k f (0 : Fin 2)) := by
  rw [val_main_v28_apply, val_main_v27_apply,
    (show idx_main_v28 (ix4 b t k f) = ix5 b t k f (0 : Fin 1) from idx_unit b t k f),
    (show idx_main_v27 (ix5 b t k f (0 : Fin 1)) = ix5 b t k f (0 : Fin 2) from idx_part0 b t k f)]

/-- The coefficients' imaginary part, taken a second time. -/
theorem v33_eq (x1 : X1) (b : Fin 16) (t : Fin 2000) (k : Fin 5) (f : Fin 96) :
    val_main_v33 (F := Ideal) x1 (ix4 b t k f) = x1 (ix5 b t k f (1 : Fin 2)) := by
  rw [val_main_v33_apply, val_main_v32_apply,
    (show idx_main_v33 (ix4 b t k f) = ix5 b t k f (0 : Fin 1) from idx_unit b t k f),
    (show idx_main_v32 (ix5 b t k f (0 : Fin 1)) = ix5 b t k f (1 : Fin 2) from idx_part1 b t k f)]

/-! ## The complex product, its two parts joined on the last axis -/

/-- Two arrays with a unit last axis joined on it: part 0 reads the first. -/
theorem join2_apply0 {α : Type} (y0 y1 : S16x2000x5x96x1.Idx → α) (b : Fin 16) (t : Fin 2000) (k : Fin 5) (f : Fin 96) :
    concatenate S16x2000x5x96x2 4 [⟨S16x2000x5x96x1, y0⟩, ⟨S16x2000x5x96x1, y1⟩] concatenates_S16x2000x5x96x1_S16x2000x5x96x1_S16x2000x5x96x2_d4
        (ix5 b t k f (0 : Fin 2)) = y0 (ix5 b t k f (0 : Fin 1)) :=
  concatenate_pair_apply_left (t := S16x2000x5x96x2) (s₁ := S16x2000x5x96x1) (s₂ := S16x2000x5x96x1)
    (4 : Fin S16x2000x5x96x2.rank) y0 y1 concatenates_S16x2000x5x96x1_S16x2000x5x96x1_S16x2000x5x96x2_d4 (ix5 b t k f (0 : Fin 2)) rfl (ix5 b t k f (0 : Fin 1))
    (fun a => by
      match a with | ⟨0, _⟩ => rfl | ⟨1, _⟩ => rfl | ⟨2, _⟩ => rfl | ⟨3, _⟩ => rfl | ⟨4, _⟩ => rfl)

/-- Two arrays with a unit last axis joined on it: part 1 reads the second. -/
theorem join2_apply1 {α : Type} (y0 y1 : S16x2000x5x96x1.Idx → α) (b : Fin 16) (t : Fin 2000) (k : Fin 5) (f : Fin 96) :
    concatenate S16x2000x5x96x2 4 [⟨S16x2000x5x96x1, y0⟩, ⟨S16x2000x5x96x1, y1⟩] concatenates_S16x2000x5x96x1_S16x2000x5x96x1_S16x2000x5x96x2_d4
        (ix5 b t k f (1 : Fin 2)) = y1 (ix5 b t k f (0 : Fin 1)) :=
  concatenate_pair_apply_right (t := S16x2000x5x96x2) (s₁ := S16x2000x5x96x1) (s₂ := S16x2000x5x96x1)
    (4 : Fin S16x2000x5x96x2.rank) y0 y1 concatenates_S16x2000x5x96x1_S16x2000x5x96x1_S16x2000x5x96x2_d4 (ix5 b t k f (1 : Fin 2)) rfl rfl (ix5 b t k f (0 : Fin 1))
    (fun a ha => by
      match a, ha with
      | ⟨0, _⟩, _ => rfl
      | ⟨1, _⟩, _ => rfl
      | ⟨2, _⟩, _ => rfl
      | ⟨3, _⟩, _ => rfl
      | ⟨4, _⟩, ha => exact (ha rfl).elim) rfl

/-- Reading through the trailing unit axis the products were given. -/
theorem idx_drop_unit (b : Fin 16) (t : Fin 2000) (k : Fin 5) (f : Fin 96) :
    idx_main_v36 (ix5 b t k f (0 : Fin 1)) = ix4 b t k f :=
  funext fun a => Fin.ext (by
    match a with | ⟨0, _⟩ => rfl | ⟨1, _⟩ => rfl | ⟨2, _⟩ => rfl | ⟨3, _⟩ => rfl)

/-- The joined products are tap k's term of the filter. -/
theorem v38_eq (x0 : X0) (x1 : X1) (b : Fin 16) (t : Fin 2000) (k : Fin 5) (f : Fin 96) (c : Fin 2) :
    val_main_v38 (F := Ideal) x0 x1 (ix5 b t k f c) = tap x0 x1 b t f c k := by
  unfold val_main_v38 tap
  by_cases hc : c.val = 0
  · obtain rfl : c = 0 := Fin.ext hc
    rw [if_pos hc, join2_apply0, val_main_v36_apply, idx_drop_unit, val_main_v24_apply, val_main_v18_apply,
      val_main_v23_apply, v15_eq, v17_eq, v20_eq, v22_eq]
    rfl
  · obtain rfl : c = 1 := Fin.ext (by omega)
    rw [if_neg hc, join2_apply1, val_main_v37_apply,
      (show idx_main_v37 (ix5 b t k f (0 : Fin 1)) = ix4 b t k f from idx_drop_unit b t k f), val_main_v35_apply,
      val_main_v29_apply, val_main_v34_apply, v26_eq, v28_eq, v31_eq, v33_eq]
    rfl

/-! ## The sum over the taps -/

/-- The sum's operand at tap k. -/
theorem idx_tap (b : Fin 16) (t : Fin 2000) (f : Fin 96) (c : Fin 2) (k : Fin 5) :
    idx_main_v39 (ix4 b t f c) k = ix5 b t k f c :=
  funext fun a => Fin.ext (by
    match a with | ⟨0, _⟩ => rfl | ⟨1, _⟩ => rfl | ⟨2, _⟩ => rfl | ⟨3, _⟩ => rfl | ⟨4, _⟩ => rfl)

/-- The sum over the taps is the filter's output. -/
theorem v39_eq (x0 : X0) (x1 : X1) (b : Fin 16) (t : Fin 2000) (f : Fin 96) (c : Fin 2) :
    val_main_v39 (F := Ideal) x0 x1 (ix4 b t f c) = fir x0 x1 b t f c := by
  rw [val_main_v39_apply, val_main_cst_apply]
  unfold fir
  refine congrArg₂ (· + ·) Ideal.ofBits_zero_f32 (Finset.sum_congr rfl fun k _ => ?_)
  rw [idx_tap, v38_eq]

/-! ## The blend -/

/-- The filter's output is read without the unit channel axis. -/
theorem idx_fir (b : Fin 16) (t : Fin 2000) (f : Fin 96) (c : Fin 2) :
    idx_main_v41 (ix5 b (0 : Fin 1) t f c) = ix4 b t f c :=
  funext fun a => Fin.ext (by
    match a with | ⟨0, _⟩ => rfl | ⟨1, _⟩ => rfl | ⟨2, _⟩ => rfl | ⟨3, _⟩ => rfl)

/-- The blend factor, given unit axes and spread over bins and parts, is read at (b, t, 0). -/
theorem idx_alpha (b : Fin 16) (t : Fin 2000) (f : Fin 96) (c : Fin 2) :
    idx_main_v40 (idx_main_v42 (ix5 b (0 : Fin 1) t f c)) = ix3 b t (0 : Fin 1) :=
  funext fun a => Fin.ext (by
    match a with
    | ⟨0, _⟩ => show ((((b.val * 1 + 0) * 2000 + t.val) * 1 + 0) * 1 + 0) / 2000 = b.val; omega
    | ⟨1, _⟩ => show ((((b.val * 1 + 0) * 2000 + t.val) * 1 + 0) * 1 + 0) / 1 % 2000 = t.val; omega
    | ⟨2, _⟩ => rfl)

/-- The signal's first 96 bins. -/
theorem idx_signal (b : Fin 16) (t : Fin 2000) (f : Fin 96) (c : Fin 2) :
    idx_main_v44 (ix5 b (0 : Fin 1) t f c) = ix5 b (0 : Fin 1) t (⟨f.val, by omega⟩ : Fin 481) c :=
  funext fun a => Fin.ext (by
    match a with | ⟨0, _⟩ => rfl | ⟨1, _⟩ => rfl | ⟨2, _⟩ => rfl | ⟨3, _⟩ => rfl | ⟨4, _⟩ => rfl)

/-- **The reference's update is the specification**: the array the reference writes over the first 96 bins is the
    filter's output blended with the signal. -/
theorem update_eq (x0 : X0) (x1 : X1) (x2 : X2) :
    val_main_v49 (F := Ideal) x0 x1 x2 = upd x0 x1 x2 := by
  funext i
  obtain ⟨b, z, t, f, c, rfl⟩ : ∃ (b : Fin 16) (z : Fin 1) (t : Fin 2000) (f : Fin 96) (c : Fin 2), i = ix5 b z t f c :=
    ⟨i 0, i 1, i 2, i 3, i 4, eq_ix5 i⟩
  obtain rfl : z = 0 := Subsingleton.elim _ _
  rw [val_main_v49_apply, val_main_v43_apply, val_main_v48_apply, val_main_v41_apply, val_main_v42_apply,
    val_main_v40_apply, val_main_v44_apply, val_main_v47_apply, val_main_v46_apply, val_main_v45_apply,
    val_main_v40_apply, val_main_cst_0_apply, idx_fir, idx_alpha, idx_signal, v39_eq]
  rfl

/-- The reference's result: the update written over the first 96 bins of the spectrum. -/
theorem result_eq (x0 : X0) (x1 : X1) (x2 : X2) :
    val_main_v51 (F := Ideal) x0 x1 x2
      = Host.scatter scatter_S16x1x2000x481x2_S1_S16x1x2000x96x2_01234_n_3_0 (fun _ b => b) x0
          (broadcastInDim S1 ![] bcast_S_S1 (constantI S_ 32 0#32)) (upd x0 x1 x2) := by
  unfold val_main_v51
  rw [update_eq]
  rfl

end Cert.ReferenceIdeal.RefValue

end
-- ==== Proof.lean ====
/-
  The certificate: a causal five-tap complex filter over time on the first 96 frequency bins, blended with the input
  and written back over those bins; the Pallas kernel against its jnp reference.

  Both programs end by writing one update array over the first 96 bins of the spectrum with the same scatter, so the
  claim comes down to the two update arrays being one function of the arguments: Cert.Spec.upd (Proof/Spec.lean).
    * The reference computes it operation by operation (Proof/RefSide.lean): the padded signal is the delayed signal,
      the five shifted slices stacked are the taps, the real and imaginary parts joined and summed over the taps are
      the filter, and the blend is written as in the specification.
    * The kernel computes it tile by tile (Proof/Taps.lean, Scratch.lean, Tile.lean, Pieces.lean: what one grid point's
      body leaves; Proof/Bridge.lean: that is the specification on the tile's rows; Proof/Points.lean,
      KernelValue.lean: over the grid and through the host operations around the call, Proof/HostSide.lean).
  Over the extended reals the only law needed to join the two sides is that addition is commutative and associative
  and a − b = a + (−b): the kernel adds its ten products per part one after the other where the reference sums five
  complex products; no input needs to be finite for that, so the precondition is never opened.
  The three frames: the two kernels' are generated; the reference's is its run with the result dropped. The
  idealization rewrote nothing, so `preserves` is trivial.
-/
import proofs.«177004_j30185030156318_2_alg».proof.Defs
import proofs.«177004_j30185030156318_2_alg».proof.Proof.Gen.Kernel
import proofs.«177004_j30185030156318_2_alg».proof.Proof.Gen.Kernel.Skeleton
import proofs.«177004_j30185030156318_2_alg».proof.Proof.Gen.Kernel.Launch
import proofs.«177004_j30185030156318_2_alg».proof.Proof.Gen.Kernel.Points
import proofs.«177004_j30185030156318_2_alg».proof.Proof.Gen.Kernel.Frame
import proofs.«177004_j30185030156318_2_alg».proof.Proof.Gen.KernelIdeal
import proofs.«177004_j30185030156318_2_alg».proof.Proof.Gen.KernelIdeal.Skeleton
import proofs.«177004_j30185030156318_2_alg».proof.Proof.Gen.KernelIdeal.Launch
import proofs.«177004_j30185030156318_2_alg».proof.Proof.Gen.KernelIdeal.Points
import proofs.«177004_j30185030156318_2_alg».proof.Proof.Gen.KernelIdeal.Frame
import proofs.«177004_j30185030156318_2_alg».proof.Proof.Gen.ReferenceIdeal
import proofs.«177004_j30185030156318_2_alg».proof.Proof.Gen.Pre_finite_inputs
import proofs.«177004_j30185030156318_2_alg».proof.Proof.KernelValue
import proofs.«177004_j30185030156318_2_alg».proof.Proof.RefSide
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.ValueP.run (F := Ideal) m ρ)

/-- Both programs end with the spectrum overwritten on its first 96 bins by the specification's update of arguments that
    agree. -/
theorem algebraic : Cert.algebraic_KernelIdeal_ReferenceIdeal := by
  intro m ρ m' ρ' _ hagree
  refine ⟨_, Cert.KernelIdeal.Pt.run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v51_eq, Cert.ReferenceIdeal.RefValue.result_eq, (hagree c).1, (hagree c).2.1, (hagree c).2.2]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
